-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x512 : Shape := ⟨3, ![32, 4096, 512]⟩
abbrev S512x48 : Shape := ⟨2, ![512, 48]⟩
abbrev S1x512x32 : Shape := ⟨3, ![1, 512, 32]⟩
abbrev S48 : Shape := ⟨1, ![48]⟩
abbrev S_ : Shape := ⟨0, ![]⟩

class Facts : Prop where
  bcast_S_S32x4096x512 : S_.BroadcastsInDim S32x4096x512 (![] : Fin 0 → Fin S32x4096x512.rank)
  reducesTo_S32x4096x512_S_d0_1_2 : S32x4096x512.ReducesTo [0, 1, 2] S_
  h_S_ : 0 < S_.numel
  bcast_S_S512x48 : S_.BroadcastsInDim S512x48 (![] : Fin 0 → Fin S512x48.rank)
  reducesTo_S512x48_S_d0_1 : S512x48.ReducesTo [0, 1] S_
  bcast_S_S1x512x32 : S_.BroadcastsInDim S1x512x32 (![] : Fin 0 → Fin S1x512x32.rank)
  reducesTo_S1x512x32_S_d0_1_2 : S1x512x32.ReducesTo [0, 1, 2] S_
  bcast_S_S48 : S_.BroadcastsInDim S48 (![] : Fin 0 → Fin S48.rank)
  reducesTo_S48_S_d0 : S48.ReducesTo [0] S_

variable [Facts]

def fn_part1 {F : FTy → Type} [FloatOps F] (main_arg4 : FVec F S48 .f32) (main_arg5 : FVec F S48 .f32) (main_arg6 : FVec F S48 .f32) (main_v13 : IVec S_ 1) (main_v16 : IVec S48 1) : IVec S_ 1 :=
  let main_c_5 : IVec S_ 1 := constantI S_ 1 1#1
  let main_v17 : IVec S_ 1 := (fun x v => Host.reduce IntOp.andi x v reducesTo_S48_S_d0 h_S_) main_v16 main_c_5
  let main_v18 : IVec S_ 1 := andi main_v13 main_v17
  let main_v19 : FVec F S48 .f32 := Host.absf main_arg4
  let main_cst_6 : FVec F S_ .f32 := constant S_ .f32 0x7F800000#32
  let main_v20 : FVec F S48 .f32 := broadcastInDim S48 ![] bcast_S_S48 main_cst_6
  let main_v21 : IVec S48 1 := cmpf .olt main_v19 main_v20
  let main_c_7 : IVec S_ 1 := constantI S_ 1 1#1
  let main_v22 : IVec S_ 1 := (fun x v => Host.reduce IntOp.andi x v reducesTo_S48_S_d0 h_S_) main_v21 main_c_7
  let main_v23 : IVec S_ 1 := andi main_v18 main_v22
  let main_v24 : FVec F S48 .f32 := Host.absf main_arg5
  let main_cst_8 : FVec F S_ .f32 := constant S_ .f32 0x7F800000#32
  let main_v25 : FVec F S48 .f32 := broadcastInDim S48 ![] bcast_S_S48 main_cst_8
  let main_v26 : IVec S48 1 := cmpf .olt main_v24 main_v25
  let main_c_9 : IVec S_ 1 := constantI S_ 1 1#1
  let main_v27 : IVec S_ 1 := (fun x v => Host.reduce IntOp.andi x v reducesTo_S48_S_d0 h_S_) main_v26 main_c_9
  let main_v28 : IVec S_ 1 := andi main_v23 main_v27
  let main_v29 : FVec F S48 .f32 := Host.absf main_arg6
  let main_cst_10 : FVec F S_ .f32 := constant S_ .f32 0x7F800000#32
  let main_v30 : FVec F S48 .f32 := broadcastInDim S48 ![] bcast_S_S48 main_cst_10
  let main_v31 : IVec S48 1 := cmpf .olt main_v29 main_v30
  let main_c_11 : IVec S_ 1 := constantI S_ 1 1#1
  let main_v32 : IVec S_ 1 := (fun x v => Host.reduce IntOp.andi x v reducesTo_S48_S_d0 h_S_) main_v31 main_c_11
  let main_v33 : IVec S_ 1 := andi main_v28 main_v32
  main_v33

def fn {F : FTy → Type} [FloatOps F] (main_arg0 : FVec F S32x4096x512 .f32) (main_arg1 : FVec F S512x48 .f32) (main_arg2 : FVec F S1x512x32 .f32) (main_arg3 : FVec F S48 .f32) (main_arg4 : FVec F S48 .f32) (main_arg5 : FVec F S48 .f32) (main_arg6 : FVec F S48 .f32) : IVec S_ 1 :=
  let main_v0 : FVec F S32x4096x512 .f32 := Host.absf main_arg0
  let main_cst : FVec F S_ .f32 := constant S_ .f32 0x7F800000#32
  let main_v1 : FVec F S32x4096x512 .f32 := broadcastInDim S32x4096x512 ![] bcast_S_S32x4096x512 main_cst
  let main_v2 : IVec S32x4096x512 1 := cmpf .olt main_v0 main_v1
  let main_c : IVec S_ 1 := constantI S_ 1 1#1
  let main_v3 : IVec S_ 1 := (fun x v => Host.reduce IntOp.andi x v reducesTo_S32x4096x512_S_d0_1_2 h_S_) main_v2 main_c
  let main_v4 : FVec F S512x48 .f32 := Host.absf main_arg1
  let main_cst_0 : FVec F S_ .f32 := constant S_ .f32 0x7F800000#32
  let main_v5 : FVec F S512x48 .f32 := broadcastInDim S512x48 ![] bcast_S_S512x48 main_cst_0
  let main_v6 : IVec S512x48 1 := cmpf .olt main_v4 main_v5
  let main_c_1 : IVec S_ 1 := constantI S_ 1 1#1
  let main_v7 : IVec S_ 1 := (fun x v => Host.reduce IntOp.andi x v reducesTo_S512x48_S_d0_1 h_S_) main_v6 main_c_1
  let main_v8 : IVec S_ 1 := andi main_v3 main_v7
  let main_v9 : FVec F S1x512x32 .f32 := Host.absf main_arg2
  let main_cst_2 : FVec F S_ .f32 := constant S_ .f32 0x7F800000#32
  let main_v10 : FVec F S1x512x32 .f32 := broadcastInDim S1x512x32 ![] bcast_S_S1x512x32 main_cst_2
  let main_v11 : IVec S1x512x32 1 := cmpf .olt main_v9 main_v10
  let main_c_3 : IVec S_ 1 := constantI S_ 1 1#1
  let main_v12 : IVec S_ 1 := (fun x v => Host.reduce IntOp.andi x v reducesTo_S1x512x32_S_d0_1_2 h_S_) main_v11 main_c_3
  let main_v13 : IVec S_ 1 := andi main_v8 main_v12
  let main_v14 : FVec F S48 .f32 := Host.absf main_arg3
  let main_cst_4 : FVec F S_ .f32 := constant S_ .f32 0x7F800000#32
  let main_v15 : FVec F S48 .f32 := broadcastInDim S48 ![] bcast_S_S48 main_cst_4
  let main_v16 : IVec S48 1 := cmpf .olt main_v14 main_v15
  fn_part1 (F := F) main_arg4 main_arg5 main_arg6 main_v13 main_v16
-- ==== Kernel.lean ====
abbrev S32x4096x512 : Shape := ⟨3, ![32, 4096, 512]⟩
abbrev S512x48 : Shape := ⟨2, ![512, 48]⟩
abbrev S1x512x32 : Shape := ⟨3, ![1, 512, 32]⟩
abbrev S48 : Shape := ⟨1, ![48]⟩
abbrev S_ : Shape := ⟨0, ![]⟩
abbrev S1x48 : Shape := ⟨2, ![1, 48]⟩
abbrev S512x32 : Shape := ⟨2, ![512, 32]⟩
abbrev S32x512x32 : Shape := ⟨3, ![32, 512, 32]⟩
abbrev S1x2048x512 : Shape := ⟨3, ![1, 2048, 512]⟩
abbrev S1x32 : Shape := ⟨2, ![1, 32]⟩
abbrev S2048x512 : Shape := ⟨2, ![2048, 512]⟩
abbrev S2048x48 : Shape := ⟨2, ![2048, 48]⟩
abbrev S2048 : Shape := ⟨1, ![2048]⟩
abbrev S2048x1 : Shape := ⟨2, ![2048, 1]⟩
abbrev S2048x32 : Shape := ⟨2, ![2048, 32]⟩
abbrev S32 : Shape := ⟨1, ![32]⟩
abbrev S32x16384 : Shape := ⟨2, ![32, 16384]⟩
abbrev S32x1 : Shape := ⟨2, ![32, 1]⟩

abbrev nBuf : Space → Nat
  | .hbm => 32
  | .vmem => 9
  | .smem => 0
  | _ => 0

abbrev bufTy : (tb : Table) → Fin (tcTables nBuf tb) → BufTy
  | .hbm, ⟨0, _⟩ => ⟨S32x4096x512, .f32⟩
  | .hbm, ⟨1, _⟩ => ⟨S512x48, .f32⟩
  | .hbm, ⟨2, _⟩ => ⟨S1x512x32, .f32⟩
  | .hbm, ⟨3, _⟩ => ⟨S48, .f32⟩
  | .hbm, ⟨4, _⟩ => ⟨S48, .f32⟩
  | .hbm, ⟨5, _⟩ => ⟨S48, .f32⟩
  | .hbm, ⟨6, _⟩ => ⟨S48, .f32⟩
  | .hbm, ⟨7, _⟩ => ⟨S_, .f32⟩
  | .hbm, ⟨8, _⟩ => ⟨S48, .f32⟩
  | .hbm, ⟨9, _⟩ => ⟨S48, .f32⟩
  | .hbm, ⟨10, _⟩ => ⟨S48, .f32⟩
  | .hbm, ⟨11, _⟩ => ⟨S48, .f32⟩
  | .hbm, ⟨12, _⟩ => ⟨S48, .f32⟩
  | .hbm, ⟨13, _⟩ => ⟨S48, .f32⟩
  | .hbm, ⟨14, _⟩ => ⟨S1x48, .f32⟩
  | .hbm, ⟨15, _⟩ => ⟨S512x48, .f32⟩
  | .hbm, ⟨16, _⟩ => ⟨S512x48, .f32⟩
  | .hbm, ⟨17, _⟩ => ⟨S512x48, .bf16⟩
  | .hbm, ⟨18, _⟩ => ⟨S1x48, .f32⟩
  | .hbm, ⟨19, _⟩ => ⟨S512x32, .f32⟩
  | .hbm, ⟨20, _⟩ => ⟨S32x512x32, .f32⟩
  | .hbm, ⟨21, _⟩ => ⟨S32x16384, .f32⟩
  | .hbm, ⟨22, _⟩ => ⟨S32x16384, .f32⟩
  | .hbm, ⟨23, _⟩ => ⟨S_, .f32⟩
  | .hbm, ⟨24, _⟩ => ⟨S32, .f32⟩
  | .hbm, ⟨25, _⟩ => ⟨S32x1, .f32⟩
  | .hbm, ⟨26, _⟩ => ⟨S32x1, .f32⟩
  | .hbm, ⟨27, _⟩ => ⟨S_, .f32⟩
  | .hbm, ⟨28, _⟩ => ⟨S32x1, .f32⟩
  | .hbm, ⟨29, _⟩ => ⟨S32x1, .f32⟩
  | .hbm, ⟨30, _⟩ => ⟨S32x16384, .f32⟩
  | .hbm, ⟨31, _⟩ => ⟨S32x16384, .f32⟩
  | .local _ .vmem, ⟨0, _⟩ => ⟨S1x2048x512, .f32⟩
  | .local _ .vmem, ⟨1, _⟩ => ⟨S1x2048x512, .f32⟩
  | .local _ .vmem, ⟨2, _⟩ => ⟨S512x48, .bf16⟩
  | .local _ .vmem, ⟨3, _⟩ => ⟨S1x48, .f32⟩
  | .local _ .vmem, ⟨4, _⟩ => ⟨S512x32, .f32⟩
  | .local _ .vmem, ⟨5, _⟩ => ⟨S1x512x32, .f32⟩
  | .local _ .vmem, ⟨6, _⟩ => ⟨S1x512x32, .f32⟩
  | .local _ .vmem, ⟨7, _⟩ => ⟨S512x32, .f32⟩
  | .local _ .vmem, ⟨8, _⟩ => ⟨S1x32, .f32⟩
  | _, _ => ⟨S32x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v37 : BitVec 1 := Scalar.cmpi .eq arg1 c1_i32
  let v38 : BitVec 32 := Scalar.extui v37
  let c0_i32_19 : BitVec 32 := 0#32
  let v39 : BitVec 1 := Scalar.cmpi .ne v38 c0_i32_19
  v39

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x48 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S48 : S_.BroadcastsInDim S48 (![] : Fin 0 → Fin S48.rank)
  bcast_S48_S1x48_1 : S48.BroadcastsInDim S1x48 (![1] : Fin 1 → Fin S1x48.rank)
  bcast_S1x48_S512x48_0_1 : S1x48.BroadcastsInDim S512x48 (![0, 1] : Fin 2 → Fin S512x48.rank)
  bitsLt_bf16_f32 : FTy.bits .bf16 < FTy.bits .f32
  shapeCasts_S48_S1x48 : S48.ShapeCasts S1x48
  shapeCasts_S1x512x32_S512x32 : S1x512x32.ShapeCasts S512x32
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x48_S512x48_0_0 : ∀ a, (![0, 0] : Fin 2 → Nat) a + S512x48.size a ≤ S512x48.size a
  h_S512x48 : 0 < S512x48.numel
  shapeCasts_S512x48_S512x48 : S512x48.ShapeCasts S512x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S2048x48 : S1x48.Broadcasts S2048x48
  reduces_S2048x48_S2048 : S2048x48.Reduces [1] S2048
  shapeCasts_S2048_S2048x1 : S2048.ShapeCasts S2048x1
  broadcasts_S2048x1_S2048x48 : S2048x1.Broadcasts S2048x48
  slices_S2048x48_o0_0_S2048x32 : S2048x48.Slices ![0, 0] S2048x32
  reduces_S2048x32_S32 : S2048x32.Reduces [0] S32
  shapeCasts_S32_S1x32 : S32.ShapeCasts S1x32
  broadcasts_S1x32_S512x32 : S1x32.Broadcasts S512x32
  reduces_S512x32_S32 : S512x32.Reduces [0] S32
  inb_S1x512x32_S1x512x32_0_0_0 : ∀ a, (![0, 0, 0] : Fin 3 → Nat) a + S1x512x32.size a ≤ S1x512x32.size a
  h_S1x512x32 : 0 < S1x512x32.numel
  shapeCasts_S512x32_S1x512x32 : S512x32.ShapeCasts S1x512x32
  shapeCasts_S32x512x32_S32x16384 : S32x512x32.ShapeCasts S32x16384
  reducesTo_S32x16384_S32_d1 : S32x16384.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x16384_0_1 : S32x1.BroadcastsInDim S32x16384 (![0, 1] : Fin 2 → Fin S32x16384.rank)
  dot_S2048x512_S512x48_S2048x48_1_0_0_1_n_n_wf : DotDims.WF S2048x512 S512x48 S2048x48 [1] [0] [0] [1] [] []
  dot_S2048x512_S2048x32_S512x32_0_0_1_1_n_n_wf : DotDims.WF S2048x512 S2048x32 S512x32 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S32x4096x512.size a
  hwx0_0 : ∀ i : grid0.Coords, EltTy.bits .f32 = 32 ∨ (Rect.block (s := S32x4096x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x48.size a ≤ S512x48.size a
  hwx0_1 : ∀ i : grid0.Coords, EltTy.bits .bf16 = 32 ∨ (Rect.block (s := S512x48) S512x48.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x48.size a ≤ S1x48.size a
  hwx0_2 : ∀ i : grid0.Coords, EltTy.bits .f32 = 32 ∨ (Rect.block (s := S1x48) S1x48.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S512x32.size a
  hwx0_3 : ∀ i : grid0.Coords, EltTy.bits .f32 = 32 ∨ (Rect.block (s := S512x32) S512x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x32.size a ≤ S32x512x32.size a
  hwx0_4 : ∀ i : grid0.Coords, EltTy.bits .f32 = 32 ∨ (Rect.block (s := S32x512x32) S1x512x32.size (cc0_transform_4 i) (hinb0_4 i)).WholeWords (EltTy.packing .f32)

variable [Facts₀]

def dot_S2048x512_S512x48_S2048x48_1_0_0_1_n_n : DotDims S2048x512 S512x48 S2048x48 where
  lhsContracting := [1]
  rhsContracting := [0]
  lhsNonContracting := [0]
  rhsNonContracting := [1]
  lhsBatch := []
  rhsBatch := []
  wf := dot_S2048x512_S512x48_S2048x48_1_0_0_1_n_n_wf
def dot_S2048x512_S2048x32_S512x32_0_0_1_1_n_n : DotDims S2048x512 S2048x32 S512x32 where
  lhsContracting := [0]
  rhsContracting := [0]
  lhsNonContracting := [1]
  rhsNonContracting := [1]
  lhsBatch := []
  rhsBatch := []
  wf := dot_S2048x512_S2048x32_S512x32_0_0_1_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x512x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x4096x512 : Shape := ⟨3, ![32, 4096, 512]⟩
abbrev S512x48 : Shape := ⟨2, ![512, 48]⟩
abbrev S1x512x32 : Shape := ⟨3, ![1, 512, 32]⟩
abbrev S48 : Shape := ⟨1, ![48]⟩
abbrev S_ : Shape := ⟨0, ![]⟩
abbrev S1x48 : Shape := ⟨2, ![1, 48]⟩
abbrev S32x4096x48 : Shape := ⟨3, ![32, 4096, 48]⟩
abbrev S1x1x48 : Shape := ⟨3, ![1, 1, 48]⟩
abbrev S32x4096 : Shape := ⟨2, ![32, 4096]⟩
abbrev S32x4096x1 : Shape := ⟨3, ![32, 4096, 1]⟩
abbrev S32x4096x32 : Shape := ⟨3, ![32, 4096, 32]⟩
abbrev S32x32 : Shape := ⟨2, ![32, 32]⟩
abbrev S32x1x32 : Shape := ⟨3, ![32, 1, 32]⟩
abbrev S32x512x32 : Shape := ⟨3, ![32, 512, 32]⟩
abbrev S32x16384 : Shape := ⟨2, ![32, 16384]⟩
abbrev S32 : Shape := ⟨1, ![32]⟩
abbrev S32x1 : Shape := ⟨2, ![32, 1]⟩

abbrev nBuf : Space → Nat
  | .hbm => 65
  | .vmem => 0
  | .smem => 0
  | _ => 0

abbrev bufTy : (tb : Table) → Fin (tcTables nBuf tb) → BufTy
  | .hbm, ⟨0, _⟩ => ⟨S32x4096x512, .f32⟩
  | .hbm, ⟨1, _⟩ => ⟨S512x48, .f32⟩
  | .hbm, ⟨2, _⟩ => ⟨S1x512x32, .f32⟩
  | .hbm, ⟨3, _⟩ => ⟨S48, .f32⟩
  | .hbm, ⟨4, _⟩ => ⟨S48, .f32⟩
  | .hbm, ⟨5, _⟩ => ⟨S48, .f32⟩
  | .hbm, ⟨6, _⟩ => ⟨S48, .f32⟩
  | .hbm, ⟨7, _⟩ => ⟨S_, .f32⟩
  | .hbm, ⟨8, _⟩ => ⟨S48, .f32⟩
  | .hbm, ⟨9, _⟩ => ⟨S48, .f32⟩
  | .hbm, ⟨10, _⟩ => ⟨S48, .f32⟩
  | .hbm, ⟨11, _⟩ => ⟨S48, .f32⟩
  | .hbm, ⟨12, _⟩ => ⟨S48, .f32⟩
  | .hbm, ⟨13, _⟩ => ⟨S48, .f32⟩
  | .hbm, ⟨14, _⟩ => ⟨S1x48, .f32⟩
  | .hbm, ⟨15, _⟩ => ⟨S512x48, .f32⟩
  | .hbm, ⟨16, _⟩ => ⟨S512x48, .f32⟩
  | .hbm, ⟨17, _⟩ => ⟨S32x4096x48, .f32⟩
  | .hbm, ⟨18, _⟩ => ⟨S1x1x48, .f32⟩
  | .hbm, ⟨19, _⟩ => ⟨S32x4096x48, .f32⟩
  | .hbm, ⟨20, _⟩ => ⟨S32x4096x48, .f32⟩
  | .hbm, ⟨21, _⟩ => ⟨S_, .f32⟩
  | .hbm, ⟨22, _⟩ => ⟨S32x4096, .f32⟩
  | .hbm, ⟨23, _⟩ => ⟨S_, .f32⟩
  | .hbm, ⟨24, _⟩ => ⟨S32x4096, .f32⟩
  | .hbm, ⟨25, _⟩ => ⟨S32x4096, .f32⟩
  | .hbm, ⟨26, _⟩ => ⟨S32x4096x1, .f32⟩
  | .hbm, ⟨27, _⟩ => ⟨S32x4096x48, .f32⟩
  | .hbm, ⟨28, _⟩ => ⟨S32x4096x48, .f32⟩
  | .hbm, ⟨29, _⟩ => ⟨S32x4096x48, .f32⟩
  | .hbm, ⟨30, _⟩ => ⟨S_, .f32⟩
  | .hbm, ⟨31, _⟩ => ⟨S32x4096, .f32⟩
  | .hbm, ⟨32, _⟩ => ⟨S32x4096x1, .f32⟩
  | .hbm, ⟨33, _⟩ => ⟨S32x4096x48, .f32⟩
  | .hbm, ⟨34, _⟩ => ⟨S32x4096x48, .f32⟩
  | .hbm, ⟨35, _⟩ => ⟨S32x4096x32, .f32⟩
  | .hbm, ⟨36, _⟩ => ⟨S_, .f32⟩
  | .hbm, ⟨37, _⟩ => ⟨S32x32, .f32⟩
  | .hbm, ⟨38, _⟩ => ⟨S32x1x32, .f32⟩
  | .hbm, ⟨39, _⟩ => ⟨S32x512x32, .f32⟩
  | .hbm, ⟨40, _⟩ => ⟨S32x512x32, .f32⟩
  | .hbm, ⟨41, _⟩ => ⟨S32x512x32, .f32⟩
  | .hbm, ⟨42, _⟩ => ⟨S32x512x32, .f32⟩
  | .hbm, ⟨43, _⟩ => ⟨S32x512x32, .f32⟩
  | .hbm, ⟨44, _⟩ => ⟨S32x512x32, .f32⟩
  | .hbm, ⟨45, _⟩ => ⟨S_, .f32⟩
  | .hbm, ⟨46, _⟩ => ⟨S32x32, .f32⟩
  | .hbm, ⟨47, _⟩ => ⟨S32x1x32, .f32⟩
  | .hbm, ⟨48, _⟩ => ⟨S32x1x32, .f32⟩
  | .hbm, ⟨49, _⟩ => ⟨S_, .f32⟩
  | .hbm, ⟨50, _⟩ => ⟨S32x1x32, .f32⟩
  | .hbm, ⟨51, _⟩ => ⟨S32x1x32, .f32⟩
  | .hbm, ⟨52, _⟩ => ⟨S32x512x32, .f32⟩
  | .hbm, ⟨53, _⟩ => ⟨S32x512x32, .f32⟩
  | .hbm, ⟨54, _⟩ => ⟨S32x16384, .f32⟩
  | .hbm, ⟨55, _⟩ => ⟨S32x16384, .f32⟩
  | .hbm, ⟨56, _⟩ => ⟨S_, .f32⟩
  | .hbm, ⟨57, _⟩ => ⟨S32, .f32⟩
  | .hbm, ⟨58, _⟩ => ⟨S32x1, .f32⟩
  | .hbm, ⟨59, _⟩ => ⟨S32x1, .f32⟩
  | .hbm, ⟨60, _⟩ => ⟨S_, .f32⟩
  | .hbm, ⟨61, _⟩ => ⟨S32x1, .f32⟩
  | .hbm, ⟨62, _⟩ => ⟨S32x1, .f32⟩
  | .hbm, ⟨63, _⟩ => ⟨S32x16384, .f32⟩
  | .hbm, ⟨64, _⟩ => ⟨S32x16384, .f32⟩
  | _, _ => ⟨S32x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]

class Facts₀ : Prop where
  bcast_S_S48 : S_.BroadcastsInDim S48 (![] : Fin 0 → Fin S48.rank)
  bcast_S48_S1x48_1 : S48.BroadcastsInDim S1x48 (![1] : Fin 1 → Fin S1x48.rank)
  bcast_S1x48_S512x48_0_1 : S1x48.BroadcastsInDim S512x48 (![0, 1] : Fin 2 → Fin S512x48.rank)
  bcast_S48_S1x1x48_2 : S48.BroadcastsInDim S1x1x48 (![2] : Fin 1 → Fin S1x1x48.rank)
  bcast_S1x1x48_S32x4096x48_0_1_2 : S1x1x48.BroadcastsInDim S32x4096x48 (![0, 1, 2] : Fin 3 → Fin S32x4096x48.rank)
  reducesTo_S32x4096x48_S32x4096_d2 : S32x4096x48.ReducesTo [2] S32x4096
  h_S_ : 0 < S_.numel
  bcast_S_S32x4096 : S_.BroadcastsInDim S32x4096 (![] : Fin 0 → Fin S32x4096.rank)
  bcast_S32x4096_S32x4096x1_0_1 : S32x4096.BroadcastsInDim S32x4096x1 (![0, 1] : Fin 2 → Fin S32x4096x1.rank)
  bcast_S32x4096x1_S32x4096x48_0_1_2 : S32x4096x1.BroadcastsInDim S32x4096x48 (![0, 1, 2] : Fin 3 → Fin S32x4096x48.rank)
  slices_S32x4096x48_S32x4096x32_0_0_0 : S32x4096x48.Slices ![0, 0, 0] S32x4096x32
  reducesTo_S32x4096x32_S32x32_d1 : S32x4096x32.ReducesTo [1] S32x32
  bcast_S32x32_S32x1x32_0_2 : S32x32.BroadcastsInDim S32x1x32 (![0, 2] : Fin 2 → Fin S32x1x32.rank)
  bcast_S32x1x32_S32x512x32_0_1_2 : S32x1x32.BroadcastsInDim S32x512x32 (![0, 1, 2] : Fin 3 → Fin S32x512x32.rank)
  bcast_S1x512x32_S32x512x32_0_1_2 : S1x512x32.BroadcastsInDim S32x512x32 (![0, 1, 2] : Fin 3 → Fin S32x512x32.rank)
  reducesTo_S32x512x32_S32x32_d1 : S32x512x32.ReducesTo [1] S32x32
  bcast_S_S32x1x32 : S_.BroadcastsInDim S32x1x32 (![] : Fin 0 → Fin S32x1x32.rank)
  shapeCasts_S32x512x32_S32x16384 : S32x512x32.ShapeCasts S32x16384
  reducesTo_S32x16384_S32_d1 : S32x16384.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x16384_0_1 : S32x1.BroadcastsInDim S32x16384 (![0, 1] : Fin 2 → Fin S32x16384.rank)
  dot_S32x4096x512_S512x48_S32x4096x48_2_0_01_1_n_n_wf : DotDims.WF S32x4096x512 S512x48 S32x4096x48 [2] [0] [0, 1] [1] [] []
  dot_S32x4096x512_S32x4096x32_S32x512x32_1_1_2_2_0_0_wf : DotDims.WF S32x4096x512 S32x4096x32 S32x512x32 [1] [1] [2] [2] [0] [0]

variable [Facts₀]

def dot_S32x4096x512_S512x48_S32x4096x48_2_0_01_1_n_n : DotDims S32x4096x512 S512x48 S32x4096x48 where
  lhsContracting := [2]
  rhsContracting := [0]
  lhsNonContracting := [0, 1]
  rhsNonContracting := [1]
  lhsBatch := []
  rhsBatch := []
  wf := dot_S32x4096x512_S512x48_S32x4096x48_2_0_01_1_n_n_wf
def dot_S32x4096x512_S32x4096x32_S32x512x32_1_1_2_2_0_0 : DotDims S32x4096x512 S32x4096x32 S32x512x32 where
  lhsContracting := [1]
  rhsContracting := [1]
  lhsNonContracting := [2]
  rhsNonContracting := [2]
  lhsBatch := [0]
  rhsBatch := [0]
  wf := dot_S32x4096x512_S32x4096x32_S32x512x32_1_1_2_2_0_0_wf

class Facts : Prop extends Facts₀ where

variable [Facts]
-- ==== Proof.Pieces.lean ====
/-
  What the kernel body leaves behind, case by case, as values.

  The body has two cases. At the first half of a batch's rows (case A) it clears both accumulators and then adds the
  half's contributions: the mass row ends at `0 + (mass of the half)` and the weighted-feature matrix at
  `0 + (weighted features of the half)`; the output block is not touched. At the second half (case B) it adds the
  half's contributions to what the first half left and then stores, in the output block, the residual against the
  cluster centres normalised over the features. Each accumulator and the output block are written by covering stores
  through their whole buffers, so what they hold afterwards is the last store's value, and a load that follows a
  store reads that store's value.
-/
import proofs.«137309_j11888469475783_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Case A, the weighted-feature accumulator: cleared, then the half's weighted features added. -/
theorem acc_A (c : Dev nD) (i : grid0.Coords) (arg2 : Memref sig .tc .vmem S1x2048x512 .f32) (harg2 : arg2.IsWhole) (arg3 : Memref sig .tc .vmem S512x48 .bf16) (harg3 : arg3.IsWhole) (arg4 : Memref sig .tc .vmem S1x48 .f32) (harg4 : arg4.IsWhole) (arg5 : Memref sig .tc .vmem S512x32 .f32) (harg5 : arg5.IsWhole) (arg6 : Memref sig .tc .vmem S1x512x32 .f32) (harg6 : arg6.IsWhole) (arg7 : Memref sig .tc .vmem S512x32 .f32) (harg7 : arg7.IsWhole) (arg8 : Memref sig .tc .vmem S1x32 .f32) (harg8 : arg8.IsWhole) (hc0 : cond0_0 i) (hc1 : ¬cond0_1 i)
    (x0 : Vec F S1x2048x512 .f32) (x1 : Vec F S512x48 .bf16) (x2 : Vec F S1x48 .f32) (x3 : Vec F S512x32 .f32) :
    sout0_A_0 c i arg2 harg2 arg3 harg3 arg4 harg4 arg5 harg5 arg6 harg6 arg7 harg7 arg8 harg8 hc0 hc1 x0 x1 x2 x3 = k0_pay1 (k0_pay8 x0 x1 x2 (k0_pay3 (F := F))) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S512x32) hz2, View.readCov_unit_zero (S := S512x32) _ hz2]
  simp only [View.readAt_eq_ld, harg2.read_unread, harg3.read_unread, harg4.read_unread, harg5.read_unread, harg7.read_unread, harg8.read_unread,
    View.ld_unit_zero (S := S1x2048x512) hz3, View.ld_unit_zero (S := S512x48) hz2, View.ld_unit_zero (S := S1x48) hz2,
    View.ld_unit_zero (S := S512x32) hz2, View.ld_unit_zero (S := S1x32) hz2]

/-- Case A, the mass row: cleared, then the half's masses added. -/
theorem mass_A (c : Dev nD) (i : grid0.Coords) (arg2 : Memref sig .tc .vmem S1x2048x512 .f32) (harg2 : arg2.IsWhole) (arg3 : Memref sig .tc .vmem S512x48 .bf16) (harg3 : arg3.IsWhole) (arg4 : Memref sig .tc .vmem S1x48 .f32) (harg4 : arg4.IsWhole) (arg5 : Memref sig .tc .vmem S512x32 .f32) (harg5 : arg5.IsWhole) (arg6 : Memref sig .tc .vmem S1x512x32 .f32) (harg6 : arg6.IsWhole) (arg7 : Memref sig .tc .vmem S512x32 .f32) (harg7 : arg7.IsWhole) (arg8 : Memref sig .tc .vmem S1x32 .f32) (harg8 : arg8.IsWhole) (hc0 : cond0_0 i) (hc1 : ¬cond0_1 i)
    (x0 : Vec F S1x2048x512 .f32) (x1 : Vec F S512x48 .bf16) (x2 : Vec F S1x48 .f32) (x3 : Vec F S512x32 .f32) :
    sout0_A_1 c i arg2 harg2 arg3 harg3 arg4 harg4 arg5 harg5 arg6 harg6 arg7 harg7 arg8 harg8 hc0 hc1 x0 x1 x2 x3 = k0_pay7 x0 x1 x2 (k0_pay4 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x32) hz2, View.readCov_unit_zero (S := S1x32) _ hz2]
  simp only [View.readAt_eq_ld, harg2.read_unread, harg3.read_unread, harg4.read_unread, harg5.read_unread, harg7.read_unread, harg8.read_unread,
    View.ld_unit_zero (S := S1x2048x512) hz3, View.ld_unit_zero (S := S512x48) hz2, View.ld_unit_zero (S := S1x48) hz2,
    View.ld_unit_zero (S := S512x32) hz2, View.ld_unit_zero (S := S1x32) hz2]

/-- Case B, the weighted-feature accumulator: the half's weighted features added to what the first half left. -/
theorem acc_B (c : Dev nD) (i : grid0.Coords) (arg2 : Memref sig .tc .vmem S1x2048x512 .f32) (harg2 : arg2.IsWhole) (arg3 : Memref sig .tc .vmem S512x48 .bf16) (harg3 : arg3.IsWhole) (arg4 : Memref sig .tc .vmem S1x48 .f32) (harg4 : arg4.IsWhole) (arg5 : Memref sig .tc .vmem S512x32 .f32) (harg5 : arg5.IsWhole) (arg6 : Memref sig .tc .vmem S1x512x32 .f32) (harg6 : arg6.IsWhole) (arg7 : Memref sig .tc .vmem S512x32 .f32) (harg7 : arg7.IsWhole) (arg8 : Memref sig .tc .vmem S1x32 .f32) (harg8 : arg8.IsWhole) (hc0 : ¬cond0_0 i) (hc1 : cond0_1 i)
    (x0 : Vec F S1x2048x512 .f32) (x1 : Vec F S512x48 .bf16) (x2 : Vec F S1x48 .f32) (x3 : Vec F S512x32 .f32) (xs0 : Vec F S512x32 .f32) (xs1 : Vec F S1x32 .f32) :
    sout0_B_0 c i arg2 harg2 arg3 harg3 arg4 harg4 arg5 harg5 arg6 harg6 arg7 harg7 arg8 harg8 hc0 hc1 x0 x1 x2 x3 xs0 xs1 = k0_pay1 (k0_pay8 x0 x1 x2 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero (S := S512x32) hz2]
  simp only [View.readAt_eq_ld, harg2.read_unread, harg3.read_unread, harg4.read_unread, harg5.read_unread, harg7.read_unread, harg8.read_unread,
    View.ld_unit_zero (S := S1x2048x512) hz3, View.ld_unit_zero (S := S512x48) hz2, View.ld_unit_zero (S := S1x48) hz2,
    View.ld_unit_zero (S := S512x32) hz2, View.ld_unit_zero (S := S1x32) hz2]

/-- Case B, the mass row: the half's masses added to what the first half left. -/
theorem mass_B (c : Dev nD) (i : grid0.Coords) (arg2 : Memref sig .tc .vmem S1x2048x512 .f32) (harg2 : arg2.IsWhole) (arg3 : Memref sig .tc .vmem S512x48 .bf16) (harg3 : arg3.IsWhole) (arg4 : Memref sig .tc .vmem S1x48 .f32) (harg4 : arg4.IsWhole) (arg5 : Memref sig .tc .vmem S512x32 .f32) (harg5 : arg5.IsWhole) (arg6 : Memref sig .tc .vmem S1x512x32 .f32) (harg6 : arg6.IsWhole) (arg7 : Memref sig .tc .vmem S512x32 .f32) (harg7 : arg7.IsWhole) (arg8 : Memref sig .tc .vmem S1x32 .f32) (harg8 : arg8.IsWhole) (hc0 : ¬cond0_0 i) (hc1 : cond0_1 i)
    (x0 : Vec F S1x2048x512 .f32) (x1 : Vec F S512x48 .bf16) (x2 : Vec F S1x48 .f32) (x3 : Vec F S512x32 .f32) (xs0 : Vec F S512x32 .f32) (xs1 : Vec F S1x32 .f32) :
    sout0_B_1 c i arg2 harg2 arg3 harg3 arg4 harg4 arg5 harg5 arg6 harg6 arg7 harg7 arg8 harg8 hc0 hc1 x0 x1 x2 x3 xs0 xs1 = k0_pay7 x0 x1 x2 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero (S := S1x32) hz2]
  simp only [View.readAt_eq_ld, harg2.read_unread, harg3.read_unread, harg4.read_unread, harg5.read_unread, harg7.read_unread, harg8.read_unread,
    View.ld_unit_zero (S := S1x2048x512) hz3, View.ld_unit_zero (S := S512x48) hz2, View.ld_unit_zero (S := S1x48) hz2,
    View.ld_unit_zero (S := S512x32) hz2, View.ld_unit_zero (S := S1x32) hz2]

/-- Case B, the output block: the normalised residual of the two completed accumulators against the centres. -/
theorem out_B (c : Dev nD) (i : grid0.Coords) (arg2 : Memref sig .tc .vmem S1x2048x512 .f32) (harg2 : arg2.IsWhole) (arg3 : Memref sig .tc .vmem S512x48 .bf16) (harg3 : arg3.IsWhole) (arg4 : Memref sig .tc .vmem S1x48 .f32) (harg4 : arg4.IsWhole) (arg5 : Memref sig .tc .vmem S512x32 .f32) (harg5 : arg5.IsWhole) (arg6 : Memref sig .tc .vmem S1x512x32 .f32) (harg6 : arg6.IsWhole) (arg7 : Memref sig .tc .vmem S512x32 .f32) (harg7 : arg7.IsWhole) (arg8 : Memref sig .tc .vmem S1x32 .f32) (harg8 : arg8.IsWhole) (hc0 : ¬cond0_0 i) (hc1 : cond0_1 i)
    (x0 : Vec F S1x2048x512 .f32) (x1 : Vec F S512x48 .bf16) (x2 : Vec F S1x48 .f32) (x3 : Vec F S512x32 .f32) (xs0 : Vec F S512x32 .f32) (xs1 : Vec F S1x32 .f32) :
    out0_B_4 c i arg2 harg2 arg3 harg3 arg4 harg4 arg5 harg5 arg6 harg6 arg7 harg7 arg8 harg8 hc0 hc1 x0 x1 x2 x3 xs0 xs1
      = k0_pay2 (k0_pay7 x0 x1 x2 xs1) x3 (k0_pay1 (k0_pay8 x0 x1 x2 xs0)) := by
  unfold out0_B_4
  rw [View.read_writes_eq_canon _ _ _ (cover0_B_4 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero (S := S1x512x32) hz3, View.readCov_unit_zero (S := S1x32) _ hz2, View.readCov_unit_zero (S := S512x32) _ hz2]
  simp only [View.readAt_eq_ld, harg2.read_unread, harg3.read_unread, harg4.read_unread, harg5.read_unread, harg7.read_unread, harg8.read_unread,
    View.ld_unit_zero (S := S1x2048x512) hz3, View.ld_unit_zero (S := S512x48) hz2, View.ld_unit_zero (S := S1x48) hz2,
    View.ld_unit_zero (S := S512x32) hz2, View.ld_unit_zero (S := S1x32) hz2]

end Cert.KernelIdeal.Pieces

end
-- ==== Proof.Spec.lean ====
/-
  The pooled descriptor (soft-assignment pooling of 4096 rows of 512 features into 32 clusters, with 16 ghost
  clusters dropped), written once on the extended reals, entry by entry, over plain functions of coordinates.

  For one row `xr` of 512 features, a 512 × 48 projection `cs` and a bias `bi`:
    logit c   = Σ_d xr d · cs d c + bi c                       (48 logits)
    e c       = exp (logit c − sup_c' logit c')                (the shifted exponentials)
    assign k  = e k / Σ_c e c, for the first 32 clusters k     (the softmax with the ghosts dropped)
  For a family of rows:
    asum k    = Σ_n assign (row n) k                            (the mass of cluster k)
    xta d k   = Σ_n row n d · assign (row n) k                  (features weighted by the assignments)
  and, from accumulated `acc` (= xta), `s` (= asum) and the cluster centres `c2`:
    v d k      = acc d k − s k · c2 d k                          (the residual)
    finish d k = v d k / max (sqrt (Σ_d' v d' k · v d' k)) ε     (normalised over the features of each cluster)
  The sums over the 4096 rows split into the two halves of 2048 rows, each started from zero (`sum_halves`): in the
  extended reals addition is commutative and associative, so no finiteness is needed.
-/
import Idealize.ShloMosaic.PureOps.Ideal
import Idealize.ShloMosaic.Lib.ValueIdx

noncomputable section

namespace Cert.Spec

open Idealize.ShloMosaic

/-- The first 32 of the 48 clusters. -/
abbrev keep (k : Fin 32) : Fin 48 := Fin.castLE (by norm_num) k

/-- The lower bound of both norms, as the f32 word both programs print. -/
abbrev normFloor : EReal := Ideal.ofBits .f32 0x2B8CBCCC#32

section Row
variable (cs : Fin 512 → Fin 48 → EReal) (bi : Fin 48 → EReal)

/-- The 48 logits of one row. -/
def rowLogit (xr : Fin 512 → EReal) (c : Fin 48) : EReal := (∑ d : Fin 512, xr d * cs d c) + bi c

/-- The exponentials of a row's logits shifted by their supremum. -/
def rowExp (xr : Fin 512 → EReal) (c : Fin 48) : EReal :=
  Ideal.exp (rowLogit cs bi xr c - ⨆ c' : Fin 48, rowLogit cs bi xr c')

/-- The soft assignment of one row to the 32 kept clusters. -/
def rowAssign (xr : Fin 512 → EReal) (k : Fin 32) : EReal :=
  Ideal.div (rowExp cs bi xr (keep k)) (∑ c : Fin 48, rowExp cs bi xr c)

/-- The mass a family of rows gives cluster `k`. -/
def asum {N : ℕ} (rows : Fin N → Fin 512 → EReal) (k : Fin 32) : EReal := ∑ n : Fin N, rowAssign cs bi (rows n) k

/-- Feature `d` of a family of rows weighted by their assignments to cluster `k`. -/
def xta {N : ℕ} (rows : Fin N → Fin 512 → EReal) (d : Fin 512) (k : Fin 32) : EReal :=
  ∑ n : Fin N, rows n d * rowAssign cs bi (rows n) k
end Row

/-- The residual against the cluster centres. -/
def resid (acc : Fin 512 → Fin 32 → EReal) (s : Fin 32 → EReal) (c2 : Fin 512 → Fin 32 → EReal) (d : Fin 512) (k : Fin 32) : EReal :=
  acc d k - s k * c2 d k

/-- The residual normalised over the 512 features of each cluster. -/
def finish (acc : Fin 512 → Fin 32 → EReal) (s : Fin 32 → EReal) (c2 : Fin 512 → Fin 32 → EReal) (d : Fin 512) (k : Fin 32) : EReal :=
  Ideal.div (resid acc s c2 d k)
    (max (Ideal.sqrt (∑ d' : Fin 512, resid acc s c2 d' k * resid acc s c2 d' k)) normFloor)

/-- The descriptor of batch `b` before the last normalisation, at feature `d` and cluster `k`. -/
def vlad (cs : Fin 512 → Fin 48 → EReal) (bi : Fin 48 → EReal) (x : Fin 32 → Fin 4096 → Fin 512 → EReal)
    (c2 : Fin 512 → Fin 32 → EReal) (b : Fin 32) (d : Fin 512) (k : Fin 32) : EReal :=
  finish (xta cs bi (x b)) (asum cs bi (x b)) c2 d k

/-- The lower and the upper half of 4096 rows. -/
abbrev lo (r : Fin 2048) : Fin 4096 := ⟨r.val, by omega⟩
abbrev hi (r : Fin 2048) : Fin 4096 := ⟨r.val + 2048, by omega⟩

/-- A sum over 4096 rows is the sum over the lower half, started from zero, plus the sum over the upper half. -/
theorem sum_halves (f : Fin 4096 → EReal) :
    ∑ n : Fin 4096, f n = (0 + ∑ r : Fin 2048, f (lo r)) + ∑ r : Fin 2048, f (hi r) := by
  rw [zero_add]
  have h := Fin.sum_univ_add (a := 2048) (b := 2048) (fun i : Fin (2048 + 2048) => f ⟨i.val, by omega⟩)
  refine h.trans ?_
  congr 1

end Cert.Spec

end
-- ==== Proof.LibMaxReduce.lean ====
/-
  Maximum reductions over one axis, on the extended reals (the twin of the minimum statements).

  * `fold_max_bot`: folding `max` from the bottom element over all of a finite type gives the supremum of the family
    (both are characterised by: the result is below `z` iff every member is below `z`).
  * `ofBits_neg_inf`: the f32 pattern of `-∞` is the bottom extended real.
  * `multiReduction_maximumf_sup`: a vector max-reduction over one axis from the accumulator `-∞`, read with exact
    values, is at each result index the supremum over that axis's coordinates.
-/
import Idealize.ShloMosaic.PureOps.Ideal.Laws

noncomputable section

namespace Cert.LibMaxReduce

open Idealize.ShloMosaic

/-- Folding `max` from `⊥` over a whole finite type is the supremum of the family. -/
theorem fold_max_bot {ι : Type*} [Fintype ι] (f : ι → EReal) :
    (Finset.univ : Finset ι).fold max ⊥ f = ⨆ k, f k := by
  refine eq_of_forall_ge_iff fun z => ?_
  rw [Finset.fold_max_le, iSup_le_iff]
  exact ⟨fun h k => h.2 k (Finset.mem_univ k), fun h => ⟨bot_le, fun k _ => h k⟩⟩

/-- The f32 pattern of `-∞` is the bottom extended real. -/
theorem ofBits_neg_inf : Ideal.ofBits .f32 0xFF800000#32 = (⊥ : EReal) := by
  simp [Ideal.ofBits, Ideal.ieee]

/-- From the accumulator `-∞` (f32), a max-reduction over one axis is the supremum over that axis's coordinates. -/
theorem multiReduction_maximumf_sup {s t : Shape} {a : Fin s.rank} (src : FVec Ideal s .f32)
    (h : s.Reduces [a] t) (hφ : FKind.Formats .f32) (hacc : (0xFF800000#32 : BitVec 32) = FKind.maximumf.neutral .f32 hφ)
    (j : t.Idx) :
    multiReduction .maximumf [a] t src 0xFF800000#32 h hφ hacc j = ⨆ k : Fin (s.size a), src (h.lift j k) := by
  rw [Ideal.multiReduction_maximumf_single]
  show (Finset.univ : Finset (Fin (s.size a))).fold max (Ideal.ofBits .f32 0xFF800000#32) (src ∘ h.lift j) = _
  rw [ofBits_neg_inf, fold_max_bot]
  rfl

end Cert.LibMaxReduce

end
-- ==== Proof.LibAxisSums.lean ====
import Idealize.ShloMosaic.PureOps.Ideal.Laws
import Idealize.ShloMosaic.Lib.Pipeline.Value
import Idealize.ShloMosaic.Lib.ValueIdx

/-! # Sums over one axis of a small-rank array, read at an index by coordinates

At exact values a vector sum-reduction over one axis, from the zero word, is at a result index the sum over that axis's
coordinate of the source at the index with the coordinate put back: the middle or the last axis of a rank-3 array, the
last or the first axis of a rank-2 array. With them: a sum over a rank-1 index set is the sum over its one coordinate,
and a shape cast that removes a unit axis in second place of a rank-4 array reads the operand with `0` there. -/

namespace Cert.LibAxisSums

open Idealize.ShloMosaic Idealize.ShloMosaic.ValueIdx
open scoped BigOperators

variable {α : Type}

/-- A rank-1 index set is its one coordinate's range … -/
def idxEquiv1 {n : ℕ} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- An `[a, 1, b, c]` array cast to `[a, b, c]`: the unit axis is dropped. -/
theorem shapeCast_a1bc_abc_apply {a b c : ℕ} (x : (⟨4, ![a, 1, b, c]⟩ : Shape).Idx → α)
    (h : (⟨4, ![a, 1, b, c]⟩ : Shape).ShapeCasts ⟨3, ![a, b, c]⟩) (i : Fin a) (j : Fin b) (k : Fin c) :
    shapeCast ⟨3, ![a, b, c]⟩ x h (ix3 i j k) = x (ix4 i (0 : Fin 1) j k) :=
  shapeCast_apply x h _ _ (by
    rw [Shape.rowMajor_val_four, Shape.rowMajor_val_three]
    show ((i.val * 1 + 0) * b + j.val) * c + k.val = (i.val * b + j.val) * c + k.val
    simp only [Nat.mul_one, Nat.add_zero])

/-- The sum over the middle axis of an `[a, b, c]` array, from the zero word, at `(i, k)`. -/
theorem sum_mid3_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (i : Fin a) (k : Fin c) :
    multiReduction .add [1] ⟨2, ![a, c]⟩ src 0x00000000#32 h hφ hacc (ix2 i k) = ∑ j : Fin b, src (ix3 i j k) := by
  refine (Ideal.multiReduction_add_single src 0x00000000#32 h hφ hacc (ix2 i k)).trans ?_
  show ∑ j : Fin b, src (h.lift (ix2 i k) j) = _
  refine Finset.sum_congr rfl fun j _ => congrArg src (funext fun ax => Fin.ext ?_)
  match ax with
  | ⟨0, _⟩ => rfl
  | ⟨1, _⟩ => rfl
  | ⟨2, _⟩ => rfl

/-- The sum over the last axis of an `[a, b, c]` array, from the zero word, at `(i, j)`. -/
theorem sum_last3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  show ∑ k : Fin c, src (h.lift (ix2 i j) k) = _
  refine Finset.sum_congr rfl fun k _ => congrArg src (funext fun ax => Fin.ext ?_)
  match ax with
  | ⟨0, _⟩ => rfl
  | ⟨1, _⟩ => rfl
  | ⟨2, _⟩ => rfl

/-- The sum over the last axis of an `[a, b]` array, from the zero word, at `i`. -/
theorem sum_last2_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = _
  refine Finset.sum_congr rfl fun j _ => congrArg src (funext fun ax => Fin.ext ?_)
  match ax with
  | ⟨0, _⟩ => rfl
  | ⟨1, _⟩ => rfl

/-- The sum over the first axis of an `[a, b]` array, from the zero word, at `j`. -/
theorem sum_first2_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (j : Fin b) :
    multiReduction .add [0] ⟨1, ![b]⟩ src 0x00000000#32 h hφ hacc (ix1 j) = ∑ i : Fin a, src (ix2 i j) := by
  refine (Ideal.multiReduction_add_single src 0x00000000#32 h hφ hacc (ix1 j)).trans ?_
  show ∑ i : Fin a, src (h.lift (ix1 j) i) = _
  refine Finset.sum_congr rfl fun i _ => congrArg src (funext fun ax => Fin.ext ?_)
  match ax with
  | ⟨0, _⟩ => rfl
  | ⟨1, _⟩ => rfl

end Cert.LibAxisSums
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.BodyValue.lean ====
/-
  The arithmetic of the kernel body, read entry by entry on the extended reals.

  One step of the body takes a block of 2048 rows of 512 features, the 512 × 48 projection and the bias row, and
    * forms the 48 logits of every row (the product with the projection, accumulated from zero, plus the bias),
    * shifts each row by its supremum, exponentiates, and divides by the row's sum (a softmax over the 48 clusters),
    * keeps the first 32 columns (`pay6_apply`: the entry at (r, k) is the soft assignment of row r to cluster k),
    * adds the column sums of that array to the mass row (`pay7_apply`) and the product of the transposed block with it
      to the feature accumulator (`pay8_apply`: the entry at (d, k) is the sum over the rows of feature d times the
      assignment to cluster k).
  The first step starts both accumulators from zero (`pay3_apply`, `pay4_apply`); a cast to the same shape changes
  nothing (`pay1_eq`). The last step subtracts the mass row times the centres from the accumulator and divides each
  column by its Euclidean norm over the 512 features, bounded below by a fixed positive word (`pay2_apply`).

  Every statement is at the exact values, where the narrowing and widening of formats are the identity, so each entry is
  a finite sum, a supremum, an exponential, a quotient or a square root of entries of the operands; the non-pointwise
  operations (the two products, the row maximum, the row and column sums, the unit-axis casts, the row and column
  broadcasts and the slice) are each read at explicit coordinates.
-/
import proofs.«137309_j11888469475783_1_alg».proof.Proof.Gen.KernelIdeal.Skeleton
import proofs.«137309_j11888469475783_1_alg».proof.Proof.Spec
import proofs.«137309_j11888469475783_1_alg».proof.Proof.LibMaxReduce
import proofs.«137309_j11888469475783_1_alg».proof.Proof.LibAxisSums
import proofs.«137309_j11888469475783_1_alg».proof.Proof.LibColumnCast
import proofs.«137309_j11888469475783_1_alg».proof.Proof.LibColumnBroadcast
import Idealize.ShloMosaic.Lib.ValueLayout
import Idealize.ShloMosaic.Lib.Pipeline.Value
import Idealize.ShloMosaic.Lib.ValueIdx
import Idealize.ShloMosaic.PureOps.Ideal.Laws

noncomputable section

namespace Cert.BodyValue

open Idealize.ShloMosaic Idealize.ShloMosaic.ValueIdx Cert.KernelIdeal Cert.KernelIdeal.Gen
open scoped BigOperators

/-- The rows of a [1,2048,512] block, the projection and the bias row as curried functions. -/
abbrev rowsOf (x0 : FVec Ideal S1x2048x512 .f32) : Fin 2048 → Fin 512 → EReal := fun r d => x0 (ix3 (0 : Fin 1) r d)
abbrev csOf (x1 : FVec Ideal S512x48 .bf16) : Fin 512 → Fin 48 → EReal := fun d c => x1 (ix2 d c)
abbrev biOf (x2 : FVec Ideal S1x48 .f32) : Fin 48 → EReal := fun c => x2 (ix2 (0 : Fin 1) c)

/-! ## The two products into a zero accumulator, read at an entry -/

/-- The (r, c) entry of the [2048,512] by [512,48] product, accumulated into zero, is the sum over the 512 contracted
    features of A (r, d) · B (d, c). -/
theorem matmul_rows_apply (A : FVec Ideal S2048x512 .bf16) (B : FVec Ideal S512x48 .bf16) (r : Fin 2048) (c : Fin 48) :
    matmul dot_S2048x512_S512x48_S2048x48_1_0_0_1_n_n none A B (constant (F := Ideal) S2048x48 .f32 0x00000000#32) (ix2 r c)
      = ∑ d : Fin 512, A (ix2 r d) * B (ix2 d c) := by
  show FloatOps.matmul dot_S2048x512_S512x48_S2048x48_1_0_0_1_n_n none A B
      (constant (F := Ideal) S2048x48 .f32 0x00000000#32) (ix2 r c) = _
  rw [Ideal.matmul_constant_zero_apply,
    ← Equiv.sum_comp (contrEquiv1 dot_S2048x512_S512x48_S2048x48_1_0_0_1_n_n 512 rfl rfl).symm]
  refine Finset.sum_congr rfl fun d _ => ?_
  have hc := contrEquiv1_symm_val dot_S2048x512_S512x48_S2048x48_1_0_0_1_n_n 512 rfl rfl d
  have el : dot_S2048x512_S512x48_S2048x48_1_0_0_1_n_n.lhsIdx (ix2 r c)
      ((contrEquiv1 dot_S2048x512_S512x48_S2048x48_1_0_0_1_n_n 512 rfl rfl).symm d) = ix2 r d := by
    funext ax; apply Fin.ext
    match ax with
    | ⟨0, _⟩ => simp [DotDims.lhsIdx, dot_S2048x512_S512x48_S2048x48_1_0_0_1_n_n]; rfl
    | ⟨1, _⟩ => simp [DotDims.lhsIdx, dot_S2048x512_S512x48_S2048x48_1_0_0_1_n_n]; exact hc
  have er : dot_S2048x512_S512x48_S2048x48_1_0_0_1_n_n.rhsIdx (ix2 r c)
      ((contrEquiv1 dot_S2048x512_S512x48_S2048x48_1_0_0_1_n_n 512 rfl rfl).symm d) = ix2 d c := by
    funext ax; apply Fin.ext
    match ax with
    | ⟨0, _⟩ => simp [DotDims.rhsIdx, dot_S2048x512_S512x48_S2048x48_1_0_0_1_n_n]; exact hc
    | ⟨1, _⟩ => simp [DotDims.rhsIdx, dot_S2048x512_S512x48_S2048x48_1_0_0_1_n_n]; rfl
  rw [el, er]

/-- The (d, k) entry of the product that contracts BOTH operands on their row axis, accumulated into zero, is the sum
    over the 2048 rows of A (r, d) · B (r, k). -/
theorem matmul_cols_apply (A : FVec Ideal S2048x512 .bf16) (B : FVec Ideal S2048x32 .bf16) (d : Fin 512) (k : Fin 32) :
    matmul dot_S2048x512_S2048x32_S512x32_0_0_1_1_n_n none A B (constant (F := Ideal) S512x32 .f32 0x00000000#32) (ix2 d k)
      = ∑ r : Fin 2048, A (ix2 r d) * B (ix2 r k) := by
  show FloatOps.matmul dot_S2048x512_S2048x32_S512x32_0_0_1_1_n_n none A B
      (constant (F := Ideal) S512x32 .f32 0x00000000#32) (ix2 d k) = _
  rw [Ideal.matmul_constant_zero_apply,
    ← Equiv.sum_comp (contrEquiv1 dot_S2048x512_S2048x32_S512x32_0_0_1_1_n_n 2048 rfl rfl).symm]
  refine Finset.sum_congr rfl fun r _ => ?_
  have hc := contrEquiv1_symm_val dot_S2048x512_S2048x32_S512x32_0_0_1_1_n_n 2048 rfl rfl r
  have el : dot_S2048x512_S2048x32_S512x32_0_0_1_1_n_n.lhsIdx (ix2 d k)
      ((contrEquiv1 dot_S2048x512_S2048x32_S512x32_0_0_1_1_n_n 2048 rfl rfl).symm r) = ix2 r d := by
    funext ax; apply Fin.ext
    match ax with
    | ⟨0, _⟩ => simp [DotDims.lhsIdx, dot_S2048x512_S2048x32_S512x32_0_0_1_1_n_n]; exact hc
    | ⟨1, _⟩ => simp [DotDims.lhsIdx, dot_S2048x512_S2048x32_S512x32_0_0_1_1_n_n]; rfl
  have er : dot_S2048x512_S2048x32_S512x32_0_0_1_1_n_n.rhsIdx (ix2 d k)
      ((contrEquiv1 dot_S2048x512_S2048x32_S512x32_0_0_1_1_n_n 2048 rfl rfl).symm r) = ix2 r k := by
    funext ax; apply Fin.ext
    match ax with
    | ⟨0, _⟩ => simp [DotDims.rhsIdx, dot_S2048x512_S2048x32_S512x32_0_0_1_1_n_n]; exact hc
    | ⟨1, _⟩ => simp [DotDims.rhsIdx, dot_S2048x512_S2048x32_S512x32_0_0_1_1_n_n]; rfl
  rw [el, er]

/-! ## The payloads that only re-label or splat -/

/-- A cast to the same shape changes nothing. -/
theorem pay1_eq (v : FVec Ideal S512x32 .f32) : k0_pay1 (F := Ideal) v = v := by
  unfold k0_pay1
  exact shapeCast_self v _

/-- The zero splat of the [512,32] accumulator. -/
theorem pay3_apply (d : Fin 512) (k : Fin 32) : k0_pay3 (F := Ideal) (ix2 d k) = 0 := by
  unfold k0_pay3
  rw [shapeCast_self]
  exact Ideal.ofBits_zero_f32

/-- The zero splat of the [1,32] mass row. -/
theorem pay4_apply (k : Fin 32) : k0_pay4 (F := Ideal) (ix2 (0 : Fin 1) k) = 0 := by
  unfold k0_pay4
  rw [shapeCast_self]
  exact Ideal.ofBits_zero_f32

/-! ## The row block and the logits -/

/-- The [1,2048,512] block viewed as [2048,512] (the narrowing of the format keeps the exact value). -/
theorem pay5_apply (x0 : FVec Ideal S1x2048x512 .f32) (r : Fin 2048) (d : Fin 512) :
    k0_pay5 (F := Ideal) x0 (ix2 r d) = x0 (ix3 (0 : Fin 1) r d) := by
  unfold k0_pay5
  exact shapeCast_1ab_ab_apply x0 shapeCasts_S1x2048x512_S2048x512 r d

/-- The logits of the 2048 rows: the product with the projection plus the bias row. -/
def logitsV (x0 : FVec Ideal S1x2048x512 .f32) (x1 : FVec Ideal S512x48 .bf16) (x2 : FVec Ideal S1x48 .f32) :
    FVec Ideal S2048x48 .f32 :=
  addf (matmul dot_S2048x512_S512x48_S2048x48_1_0_0_1_n_n none (k0_pay5 (F := Ideal) x0)
      (shapeCast S512x48 x1 shapeCasts_S512x48_S512x48) (constant (F := Ideal) S2048x48 .f32 0x00000000#32))
    (broadcastTo S2048x48 (shapeCast S1x48 x2 shapeCasts_S1x48_S1x48) broadcasts_S1x48_S2048x48)

/-- The logit of row r and cluster c. -/
theorem logitsV_apply (x0 : FVec Ideal S1x2048x512 .f32) (x1 : FVec Ideal S512x48 .bf16) (x2 : FVec Ideal S1x48 .f32)
    (r : Fin 2048) (c : Fin 48) :
    logitsV x0 x1 x2 (ix2 r c) = Cert.Spec.rowLogit (csOf x1) (biOf x2) (rowsOf x0 r) c := by
  unfold logitsV
  rw [addf_apply, matmul_rows_apply, broadcastTo_1b_ab_apply, shapeCast_self, shapeCast_self]
  unfold Cert.Spec.rowLogit
  refine congrArg (· + x2 (ix2 (0 : Fin 1) c)) (Finset.sum_congr rfl fun d _ => ?_)
  rw [pay5_apply]

/-- A row maximum from -∞ over the 48 clusters, at row r, is the supremum over the clusters. -/
theorem rowMax_apply (src : FVec Ideal S2048x48 .f32) (hφ : FKind.Formats .f32)
    (hacc : (0xFF800000#32 : BitVec 32) = 0xFF800000#32) (r : Fin 2048) :
    multiReduction (F := Ideal) .maximumf [1] S2048 src 0xFF800000#32 reduces_S2048x48_S2048 hφ hacc (ix1 r)
      = ⨆ c : Fin 48, src (ix2 r c) := by
  refine (Cert.LibMaxReduce.multiReduction_maximumf_sup src reduces_S2048x48_S2048 hφ hacc (ix1 r)).trans ?_
  show (⨆ c : Fin 48, src (reduces_S2048x48_S2048.lift (ix1 r) c)) = _
  refine iSup_congr fun c => congrArg src (funext fun ax => Fin.ext ?_)
  match ax with
  | ⟨0, _⟩ => rfl
  | ⟨1, _⟩ => rfl

/-- The exponentials of the logits shifted by their row maxima. -/
def expV (x0 : FVec Ideal S1x2048x512 .f32) (x1 : FVec Ideal S512x48 .bf16) (x2 : FVec Ideal S1x48 .f32) :
    FVec Ideal S2048x48 .f32 :=
  exp (subf (logitsV x0 x1 x2)
    (broadcastTo S2048x48
      (shapeCast S2048x1
        (multiReduction (F := Ideal) .maximumf [1] S2048 (logitsV x0 x1 x2) 0xFF800000#32 reduces_S2048x48_S2048 (.inl rfl) rfl)
        shapeCasts_S2048_S2048x1)
      broadcasts_S2048x1_S2048x48))

theorem expV_apply (x0 : FVec Ideal S1x2048x512 .f32) (x1 : FVec Ideal S512x48 .bf16) (x2 : FVec Ideal S1x48 .f32)
    (r : Fin 2048) (c : Fin 48) :
    expV x0 x1 x2 (ix2 r c) = Cert.Spec.rowExp (csOf x1) (biOf x2) (rowsOf x0 r) c := by
  unfold expV
  show Ideal.exp (logitsV x0 x1 x2 (ix2 r c) - broadcastTo S2048x48 _ broadcasts_S2048x1_S2048x48 (ix2 r c)) = _
  rw [Cert.LibColumnBroadcast.broadcastTo_a1_ab_apply, Cert.LibColumnCast.shapeCast_a_a1_apply, rowMax_apply]
  unfold Cert.Spec.rowExp
  simp only [logitsV_apply]

/-- The body's assignment array is the first 32 columns of the exponentials over their row sums. -/
theorem pay6_eq (x0 : FVec Ideal S1x2048x512 .f32) (x1 : FVec Ideal S512x48 .bf16) (x2 : FVec Ideal S1x48 .f32) :
    k0_pay6 (F := Ideal) x0 x1 x2
      = extractStridedSlice S2048x32 ![0, 0]
          (divf (expV x0 x1 x2)
            (broadcastTo S2048x48
              (shapeCast S2048x1
                (multiReduction (F := Ideal) .add [1] S2048 (expV x0 x1 x2) 0x00000000#32 reduces_S2048x48_S2048 (.inl rfl) rfl)
                shapeCasts_S2048_S2048x1)
              broadcasts_S2048x1_S2048x48))
          slices_S2048x48_o0_0_S2048x32 := rfl

theorem pay6_apply (x0 : FVec Ideal S1x2048x512 .f32) (x1 : FVec Ideal S512x48 .bf16) (x2 : FVec Ideal S1x48 .f32)
    (r : Fin 2048) (k : Fin 32) :
    k0_pay6 (F := Ideal) x0 x1 x2 (ix2 r k) = Cert.Spec.rowAssign (csOf x1) (biOf x2) (rowsOf x0 r) k := by
  rw [pay6_eq]
  refine (extractStridedSlice_apply ![0, 0] _ slices_S2048x48_o0_0_S2048x32 (ix2 r k) (ix2 r (Cert.Spec.keep k)) ?_).trans ?_
  · intro a
    match a with
    | ⟨0, _⟩ => exact (Nat.zero_add _).symm
    | ⟨1, _⟩ => exact (Nat.zero_add _).symm
  rw [divf_apply, Cert.LibColumnBroadcast.broadcastTo_a1_ab_apply, Cert.LibColumnCast.shapeCast_a_a1_apply,
    Cert.LibAxisSums.sum_last2_apply]
  unfold Cert.Spec.rowAssign
  simp only [expV_apply]

/-! ## The two accumulations over the rows of the block -/

theorem pay7_apply (x0 : FVec Ideal S1x2048x512 .f32) (x1 : FVec Ideal S512x48 .bf16) (x2 : FVec Ideal S1x48 .f32)
    (acc : FVec Ideal S1x32 .f32) (k : Fin 32) :
    k0_pay7 (F := Ideal) x0 x1 x2 acc (ix2 (0 : Fin 1) k)
      = acc (ix2 (0 : Fin 1) k) + Cert.Spec.asum (csOf x1) (biOf x2) (rowsOf x0) k := by
  unfold k0_pay7
  rw [shapeCast_self, addf_apply, shapeCast_a_1a_apply, Cert.LibAxisSums.sum_first2_apply]
  unfold Cert.Spec.asum
  simp only [pay6_apply]

theorem pay8_apply (x0 : FVec Ideal S1x2048x512 .f32) (x1 : FVec Ideal S512x48 .bf16) (x2 : FVec Ideal S1x48 .f32)
    (acc : FVec Ideal S512x32 .f32) (d : Fin 512) (k : Fin 32) :
    k0_pay8 (F := Ideal) x0 x1 x2 acc (ix2 d k)
      = acc (ix2 d k) + Cert.Spec.xta (csOf x1) (biOf x2) (rowsOf x0) d k := by
  unfold k0_pay8
  rw [addf_apply, matmul_cols_apply]
  unfold Cert.Spec.xta
  refine congrArg (acc (ix2 d k) + ·) (Finset.sum_congr rfl fun r _ => ?_)
  rw [pay5_apply, truncf_apply, pay6_apply]

/-! ## The last step: the residual normalised over the features -/

/-- The residual array: the accumulator minus the mass row (repeated down the rows) times the centres. -/
def residV (s : FVec Ideal S1x32 .f32) (c2 acc : FVec Ideal S512x32 .f32) : FVec Ideal S512x32 .f32 :=
  subf acc (mulf (broadcastTo S512x32 s broadcasts_S1x32_S512x32) (shapeCast S512x32 c2 shapeCasts_S512x32_S512x32))

theorem residV_apply (s : FVec Ideal S1x32 .f32) (c2 acc : FVec Ideal S512x32 .f32) (d : Fin 512) (k : Fin 32) :
    residV s c2 acc (ix2 d k)
      = Cert.Spec.resid (fun d k => acc (ix2 d k)) (fun k => s (ix2 (0 : Fin 1) k)) (fun d k => c2 (ix2 d k)) d k := by
  unfold residV
  rw [subf_apply, mulf_apply, broadcastTo_1b_ab_apply, shapeCast_self]
  rfl

/-- The body's last payload is the residual over the row of its column norms, bounded below. -/
theorem pay2_eq (s : FVec Ideal S1x32 .f32) (c2 acc : FVec Ideal S512x32 .f32) :
    k0_pay2 (F := Ideal) s c2 acc
      = shapeCast S1x512x32
          (divf (residV s c2 acc)
            (broadcastTo S512x32
              (maximumf
                (sqrt (shapeCast S1x32
                  (multiReduction (F := Ideal) .add [0] S32 (mulf (residV s c2 acc) (residV s c2 acc)) 0x00000000#32
                    reduces_S512x32_S32 (.inl rfl) rfl)
                  shapeCasts_S32_S1x32))
                (broadcast S1x32 (Scalar.ofBits (F := Ideal) .f32 0x2B8CBCCC#32)))
              broadcasts_S1x32_S512x32))
          shapeCasts_S512x32_S1x512x32 := rfl

theorem pay2_apply (s : FVec Ideal S1x32 .f32) (c2 acc : FVec Ideal S512x32 .f32) (d : Fin 512) (k : Fin 32) :
    k0_pay2 (F := Ideal) s c2 acc (ix3 (0 : Fin 1) d k)
      = Cert.Spec.finish (fun d k => acc (ix2 d k)) (fun k => s (ix2 (0 : Fin 1) k)) (fun d k => c2 (ix2 d k)) d k := by
  rw [pay2_eq, shapeCast_ab_1ab_apply, divf_apply, broadcastTo_1b_ab_apply, maximumf_apply]
  show Ideal.div (residV s c2 acc (ix2 d k))
      (max (Ideal.sqrt (shapeCast S1x32 _ shapeCasts_S32_S1x32 (ix2 (0 : Fin 1) k))) (Ideal.ofBits .f32 0x2B8CBCCC#32)) = _
  rw [shapeCast_a_1a_apply, Cert.LibAxisSums.sum_first2_apply]
  unfold Cert.Spec.finish
  simp only [mulf_apply, residV_apply]

end Cert.BodyValue

end
-- ==== Proof.KernelValue.lean ====
/-
  The kernel's result, as a function of its argument arrays.

  The region walks 64 points: for each of the 32 batches, first the lower 2048 rows, then the upper 2048 rows. Around
  it the host computes, before, the projection with the scale folded in, the folded bias and the centres as a matrix,
  and, after, the normalisation of each batch's whole descriptor.

    * The arrays as the region finds them (`V_v9`, `V_v10`, `V_v11`) are those host terms of the arguments; a
      block of the rows at point t is rows (t mod 2)·2048 … of batch t / 2 (`iblk0_apply`), and the other three
      windows always show their whole arrays.
    * After an even point the two accumulators hold the lower half's contributions started from zero
      (`outsAt_even`); after the odd point that follows, the output block holds the normalised residual of the
      accumulators completed with the upper half (`outsAt_odd`).
    * A sum over the 4096 rows is the lower half's sum started from zero plus the upper half's (`Spec.sum_halves`),
      so that block is the batch's descriptor entry by entry (`batch_value`, `out_value`).
    * Only odd points write their block back, each the block of its batch, and these 32 blocks cover the result
      array (`covered`): the array ends holding the descriptor (`final`), and the host's last normalisation is
      applied to it (`tail_eq`, `run`).
-/
import proofs.«137309_j11888469475783_1_alg».proof.Proof.Gen.KernelIdeal.Frame
import proofs.«137309_j11888469475783_1_alg».proof.Proof.Pieces
import proofs.«137309_j11888469475783_1_alg».proof.Proof.Spec
import proofs.«137309_j11888469475783_1_alg».proof.Proof.BodyValue
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Entry

open Cert.KernelIdeal Cert.KernelIdeal.Gen

section Generic

variable {F : FTy → Type} [FloatOps F]
variable (m : (ℓ : Loc nD τ sig) → Buf (Elt F) ℓ) (ρ : Dev nD → PrngReg)

/-- The folded scale: gamma times the reciprocal square root of the variance plus its floor. -/
def scaleTerm (x3 x6 : FVec F S48 .f32) : FVec F S48 .f32 :=
  mulf x3 (Host.rsqrt (addf x6 (broadcastInDim S48 ![] bcast_S_S48 (constant S_ .f32 0x3727C5AC#32))))

/-- The projection with the scale folded in, column by column. -/
def csTerm (x1 : FVec F S512x48 .f32) (x3 x6 : FVec F S48 .f32) : FVec F S512x48 .f32 :=
  mulf x1 (broadcastInDim S512x48 ![0, 1] bcast_S1x48_S512x48_0_1 (broadcastInDim S1x48 ![1] bcast_S48_S1x48_1 (scaleTerm x3 x6)))

/-- The folded bias: beta minus the mean times the scale. -/
def biTerm (x3 x4 x5 x6 : FVec F S48 .f32) : FVec F S48 .f32 :=
  subf x4 (mulf x5 (scaleTerm x3 x6))

theorem V_v9 (c : Dev nD) : (V m c main_v9 : S512x48.Idx → F .bf16)
    = truncf .bf16 (csTerm (m ((c : Thread nD τ).loc main_arg1)) (m ((c : Thread nD τ).loc main_arg3)) (m ((c : Thread nD τ).loc main_arg6))) bitsLt_bf16_f32 := by
  show StableHlo.after hostOps0 (fun b => m (c, b)) (Proc.devRef .tc main_v9) = _
  after_results
  rfl

theorem V_v10 (c : Dev nD) : (V m c main_v10 : S1x48.Idx → F .f32)
    = shapeCast S1x48 (biTerm (m ((c : Thread nD τ).loc main_arg3)) (m ((c : Thread nD τ).loc main_arg4)) (m ((c : Thread nD τ).loc main_arg5)) (m ((c : Thread nD τ).loc main_arg6))) shapeCasts_S48_S1x48 := by
  show StableHlo.after hostOps0 (fun b => m (c, b)) (Proc.devRef .tc main_v10) = _
  after_results
  rfl

theorem V_v11 (c : Dev nD) : (V m c main_v11 : S512x32.Idx → F .f32)
    = shapeCast S512x32 (m ((c : Thread nD τ).loc main_arg2)) shapeCasts_S1x512x32_S512x32 := by
  show StableHlo.after hostOps0 (fun b => m (c, b)) (Proc.devRef .tc main_v11) = _
  after_results
  rfl

theorem idx_facts : ∀ t : Fin cfg0.N,
    win0_0.index t (0 : Fin 3) = t.val / 2 ∧ win0_0.index t (1 : Fin 3) = t.val % 2 ∧ win0_0.index t (2 : Fin 3) = 0
    ∧ win0_4.index t (0 : Fin 3) = t.val / 2 ∧ win0_4.index t (1 : Fin 3) = 0 ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem iblk0_apply (c : Dev nD) (t : Fin cfg0.N) (r : Fin 2048) (d : Fin 512) (b : Fin 32) (n : Fin 4096)
    (hb : b.val = t.val / 2) (hn : n.val = (t.val % 2) * 2048 + r.val) :
    (iblk m c 0 t : S1x2048x512.Idx → F .f32) (ix3 (0 : Fin 1) r d) = (V m c main_arg0 : S32x4096x512.Idx → F .f32) (ix3 b n d) := by
  obtain ⟨h0, h1, h2, -⟩ := idx_facts t
  unfold iblk
  rw [View.read_apply]
  show V m c main_arg0 (((cfg0.win 0).blk t).view.emb (ix3 (0 : Fin 1) r d)) = V m c main_arg0 (ix3 b n d)
  refine congrArg _ (funext fun a => Fin.ext ?_)
  match a with
  | ⟨0, _⟩ => show win0_0.index t (0 : Fin 3) * 1 + 1 * 0 = b.val; rw [h0, hb]; omega
  | ⟨1, _⟩ => show win0_0.index t (1 : Fin 3) * 2048 + 1 * r.val = n.val; rw [h1, hn]; omega
  | ⟨2, _⟩ => show win0_0.index t (2 : Fin 3) * 512 + 1 * d.val = d.val; rw [h2]; omega

theorem iblk1_eq (c : Dev nD) (t : Fin cfg0.N) : (iblk m c 1 t : S512x48.Idx → F .bf16) = V m c main_v9 := by
  obtain ⟨-, -, -, -, -, -, h0, h1, -⟩ := idx_facts t
  funext y
  unfold iblk
  rw [View.read_apply]
  show V m c main_v9 (((cfg0.win 1).blk t).view.emb y) = V m c main_v9 y
  refine congrArg _ (funext fun a => Fin.ext ?_)
  match a with
  | ⟨0, _⟩ => show win0_1.index t (0 : Fin 2) * 512 + 1 * (y 0).val = (y 0).val; rw [h0]; omega
  | ⟨1, _⟩ => show win0_1.index t (1 : Fin 2) * 48 + 1 * (y 1).val = (y 1).val; rw [h1]; omega

theorem iblk2_eq (c : Dev nD) (t : Fin cfg0.N) : (iblk m c 2 t : S1x48.Idx → F .f32) = V m c main_v10 := by
  obtain ⟨-, -, -, -, -, -, -, -, h0, h1, -⟩ := idx_facts t
  funext y
  unfold iblk
  rw [View.read_apply]
  show V m c main_v10 (((cfg0.win 2).blk t).view.emb y) = V m c main_v10 y
  refine congrArg _ (funext fun a => Fin.ext ?_)
  match a with
  | ⟨0, _⟩ => show win0_2.index t (0 : Fin 2) * 1 + 1 * (y 0).val = (y 0).val; rw [h0]; omega
  | ⟨1, _⟩ => show win0_2.index t (1 : Fin 2) * 48 + 1 * (y 1).val = (y 1).val; rw [h1]; omega

theorem iblk3_eq (c : Dev nD) (t : Fin cfg0.N) : (iblk m c 3 t : S512x32.Idx → F .f32) = V m c main_v11 := by
  obtain ⟨-, -, -, -, -, -, -, -, -, -, h0, h1⟩ := idx_facts t
  funext y
  unfold iblk
  rw [View.read_apply]
  show V m c main_v11 (((cfg0.win 3).blk t).view.emb y) = V m c main_v11 y
  refine congrArg _ (funext fun a => Fin.ext ?_)
  match a with
  | ⟨0, _⟩ => show win0_3.index t (0 : Fin 2) * 512 + 1 * (y 0).val = (y 0).val; rw [h0]; omega
  | ⟨1, _⟩ => show win0_3.index t (1 : Fin 2) * 32 + 1 * (y 1).val = (y 1).val; rw [h1]; omega

/-- After the first half of a batch (an even point) the two accumulators hold that half's contributions from zero. -/
theorem outsAt_even (c : Dev nD) (t : Fin cfg0.N) (h0 : t.val % 2 = 0) :
    (outsAt0 m c t.val t.isLt).2
      = (k0_pay1 (k0_pay8 (iblk m c 0 t) (iblk m c 1 t) (iblk m c 2 t) (k0_pay3 (F := F))),
         k0_pay7 (iblk m c 0 t) (iblk m c 1 t) (iblk m c 2 t) (k0_pay4 (F := F))) := by
  have h1 : ¬t.val % 2 = 1 := by omega
  rw [outsAt0_A m c t h0 h1]
  dsimp only
  rw [Cert.KernelIdeal.Pieces.acc_A, Cert.KernelIdeal.Pieces.mass_A]

/-- After the second half (an odd point) the output block holds the normalised residual of the accumulators completed
    from what the point before left. -/
theorem outsAt_odd (c : Dev nD) (t : Fin cfg0.N) (h1 : t.val % 2 = 1) :
    (outsAt0 m c t.val t.isLt).1
      = k0_pay2 (k0_pay7 (iblk m c 0 t) (iblk m c 1 t) (iblk m c 2 t) (outsAt0 m c (t.val - 1) (Nat.lt_of_le_of_lt (Nat.sub_le _ _) t.isLt)).2.2)
          (iblk m c 3 t)
          (k0_pay1 (k0_pay8 (iblk m c 0 t) (iblk m c 1 t) (iblk m c 2 t) (outsAt0 m c (t.val - 1) (Nat.lt_of_le_of_lt (Nat.sub_le _ _) t.isLt)).2.1)) := by
  have h0 : ¬t.val % 2 = 0 := by omega
  rw [outsAt0_B m c t h0 h1]
  dsimp only
  rw [Cert.KernelIdeal.Pieces.out_B]

/-- The last normalisation, over all 16384 entries of a batch's descriptor: the array flattened, divided by the larger
    of the square root of its sum of squares and the floor. -/
def tail (a : FVec F S32x512x32 .f32) : FVec F S32x16384 .f32 :=
  Host.divf (shapeCast S32x16384 a shapeCasts_S32x512x32_S32x16384)
    (broadcastInDim S32x16384 ![0, 1] bcast_S32x1_S32x16384_0_1
      (maximumf (Host.sqrt (broadcastInDim S32x1 ![0] bcast_S32_S32x1_0
          (Host.reduceAdd (mulf (shapeCast S32x16384 a shapeCasts_S32x512x32_S32x16384) (shapeCast S32x16384 a shapeCasts_S32x512x32_S32x16384))
            (constant S_ .f32 0x00000000#32) reducesTo_S32x16384_S32_d1 h_S_)))
        (broadcastInDim S32x1 ![] bcast_S_S32x1 (constant S_ .f32 0x2B8CBCCC#32))))

/-- The host operations after the region, from any contents of the buffers: the result is the last normalisation of
    the region's result array. -/
theorem tail_of_valuation (W : Valuation τ sig (Elt F)) :
    (StableHlo.after hostOps1 W (Proc.devRef .tc main_v21) : S32x16384.Idx → F .f32)
      = tail (W (Proc.devRef .tc main_v12)) := by
  after_results
  rfl

theorem tail_eq (c : Dev nD) :
    (Pipeline.afterTail₀ cfgs (dats m) 0 (V0 m) [hostOps1] c main_v21 : S32x16384.Idx → F .f32)
      = tail ((dats m 0 c).arrAt 4 cfg0.N) := by
  unfold Pipeline.afterTail₀
  refine (tail_of_valuation _).trans (congrArg tail ?_)
  exact Pipeline.withArrays_arr spec0 launch0.win.arr_inj c _ _ 4
theorem mem_blk4 (t : Fin cfg0.N) (i : S32x512x32.Idx) :
    i ∈ ((cfg0.win 4).blk t).view.set ↔ ∀ a : Fin 3, win0_4.index t a * S1x512x32.size a ≤ (i a).val ∧ (i a).val < win0_4.index t a * S1x512x32.size a + S1x512x32.size a := by
  show i ∈ ((View.whole main_v12).slice (win0_4.rect t)).set ↔ _
  rw [View.set_slice_whole, Rect.mem_set_unit]
  exact Iff.rfl

/-- Every entry of the result array lies in the block of the second-half point of its batch, which is written back. -/
theorem covered (i : S32x512x32.Idx) :
    ∃ t : Fin cfg0.N, (cfg0.win 4).flush t = true ∧ i ∈ ((cfg0.win 4).blk t).view.set := by
  have hb : (i 0).val < 32 := (i 0).isLt
  have hd : (i 1).val < 512 := (i 1).isLt
  have hk : (i 2).val < 32 := (i 2).isLt
  have hN : cfg0.N = 64 := N_0
  let t : Fin cfg0.N := ⟨2 * (i 0).val + 1, by omega⟩
  have htv : t.val = 2 * (i 0).val + 1 := rfl
  obtain ⟨-, -, -, e0, e1, e2, -⟩ := idx_facts t
  refine ⟨t, (flush0_4 t).mpr (by omega), ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 32 ≤ (i 2).val ∧ (i 2).val < win0_4.index t (2 : Fin 3) * 32 + 32; omega

end Generic

/-! ## At the exact values -/

section Exact

variable (m : (ℓ : Loc nD τ sig) → Buf (Elt Ideal) ℓ) (ρ : Dev nD → PrngReg)

open Cert.BodyValue (rowsOf csOf biOf pay1_eq pay2_apply pay3_apply pay4_apply pay7_apply pay8_apply)

/-- The projection with the scale folded in, the folded bias, the rows and the centres, as functions of coordinates. -/
def csK (c : Dev nD) : Fin 512 → Fin 48 → EReal := fun d c' =>
  csTerm (F := Ideal) (m ((c : Thread nD τ).loc main_arg1)) (m ((c : Thread nD τ).loc main_arg3)) (m ((c : Thread nD τ).loc main_arg6)) (ix2 d c')
def biK (c : Dev nD) : Fin 48 → EReal := fun c' =>
  biTerm (F := Ideal) (m ((c : Thread nD τ).loc main_arg3)) (m ((c : Thread nD τ).loc main_arg4)) (m ((c : Thread nD τ).loc main_arg5)) (m ((c : Thread nD τ).loc main_arg6)) (ix1 c')
def xK (c : Dev nD) : Fin 32 → Fin 4096 → Fin 512 → EReal := fun b n d => m ((c : Thread nD τ).loc main_arg0) (ix3 b n d)
def c2K (c : Dev nD) : Fin 512 → Fin 32 → EReal := fun d k => m ((c : Thread nD τ).loc main_arg2) (ix3 (0 : Fin 1) d k)

/-- The region's result array: every batch's descriptor before the last normalisation. -/
def G (c : Dev nD) : S32x512x32.Idx → EReal := fun i =>
  Cert.Spec.vlad (csK m c) (biK m c) (xK m c) (c2K m c) (i 0) (i 1) (i 2)

theorem cs_blk (c : Dev nD) (t : Fin cfg0.N) : csOf (iblk m c 1 t) = csK m c := by
  funext d c'
  show (iblk m c 1 t : S512x48.Idx → EReal) (ix2 d c') = _
  rw [iblk1_eq, V_v9]
  rfl

theorem bi_blk (c : Dev nD) (t : Fin cfg0.N) : biOf (iblk m c 2 t) = biK m c := by
  funext c'
  show (iblk m c 2 t : S1x48.Idx → EReal) (ix2 (0 : Fin 1) c') = _
  rw [iblk2_eq, V_v10]
  exact shapeCast_a_1a_apply _ _ (0 : Fin 1) c'

theorem c2_blk (c : Dev nD) (t : Fin cfg0.N) : (fun d k => (iblk m c 3 t : S512x32.Idx → EReal) (ix2 d k)) = c2K m c := by
  funext d k
  rw [iblk3_eq, V_v11]
  exact shapeCast_1ab_ab_apply _ _ d k

theorem rows_blk (c : Dev nD) (t : Fin cfg0.N) (b : Fin 32) (hb : b.val = t.val / 2) (f : Fin 2048 → Fin 4096)
    (hf : ∀ r, (f r).val = (t.val % 2) * 2048 + r.val) :
    rowsOf (iblk m c 0 t) = fun r => xK m c b (f r) := by
  funext r d
  show (iblk m c 0 t : S1x2048x512.Idx → EReal) (ix3 (0 : Fin 1) r d) = _
  rw [iblk0_apply m c t r d b (f r) hb (hf r), V_main_arg0]
  rfl

/-- One batch: the output block computed from the lower half's blocks `Y·` and then the upper half's `X·` is the
    descriptor of the 4096 rows, entry by entry. -/
theorem batch_value (cs : Fin 512 → Fin 48 → EReal) (bi : Fin 48 → EReal) (x : Fin 4096 → Fin 512 → EReal)
    (c2 : Fin 512 → Fin 32 → EReal)
    (X0 Y0 : FVec Ideal S1x2048x512 .f32) (X1 Y1 : FVec Ideal S512x48 .bf16) (X2 Y2 : FVec Ideal S1x48 .f32)
    (X3 : FVec Ideal S512x32 .f32)
    (hX1 : csOf X1 = cs) (hY1 : csOf Y1 = cs) (hX2 : biOf X2 = bi) (hY2 : biOf Y2 = bi)
    (hX3 : (fun d k => X3 (ix2 d k)) = c2)
    (hY0 : rowsOf Y0 = fun r => x (Cert.Spec.lo r)) (hX0 : rowsOf X0 = fun r => x (Cert.Spec.hi r))
    (d : Fin 512) (k : Fin 32) :
    k0_pay2 (F := Ideal) (k0_pay7 (F := Ideal) X0 X1 X2 (k0_pay7 (F := Ideal) Y0 Y1 Y2 (k0_pay4 (F := Ideal)))) X3
        (k0_pay1 (F := Ideal) (k0_pay8 (F := Ideal) X0 X1 X2 (k0_pay1 (F := Ideal) (k0_pay8 (F := Ideal) Y0 Y1 Y2 (k0_pay3 (F := Ideal))))))
        (ix3 (0 : Fin 1) d k)
      = Cert.Spec.finish (Cert.Spec.xta cs bi x) (Cert.Spec.asum cs bi x) c2 d k := by
  have hA : (fun d k => (k0_pay1 (F := Ideal) (k0_pay8 (F := Ideal) X0 X1 X2 (k0_pay1 (F := Ideal) (k0_pay8 (F := Ideal) Y0 Y1 Y2 (k0_pay3 (F := Ideal)))))) (ix2 d k))
      = Cert.Spec.xta cs bi x := by
    funext d k
    rw [pay1_eq, pay8_apply, pay1_eq, pay8_apply, pay3_apply, hX1, hX2, hY1, hY2, hX0, hY0]
    exact (Cert.Spec.sum_halves (fun n => x n d * Cert.Spec.rowAssign cs bi (x n) k)).symm
  have hS : (fun k => (k0_pay7 (F := Ideal) X0 X1 X2 (k0_pay7 (F := Ideal) Y0 Y1 Y2 (k0_pay4 (F := Ideal)))) (ix2 (0 : Fin 1) k))
      = Cert.Spec.asum cs bi x := by
    funext k
    rw [pay7_apply, pay7_apply, pay4_apply, hX1, hX2, hY1, hY2, hX0, hY0]
    exact (Cert.Spec.sum_halves (fun n => Cert.Spec.rowAssign cs bi (x n) k)).symm
  rw [pay2_apply, hA, hS, hX3]

/-- What an odd point leaves in the output block is its batch's descriptor. -/
theorem out_value (c : Dev nD) (t : Fin cfg0.N) (h1 : t.val % 2 = 1) (b : Fin 32) (hb : b.val = t.val / 2)
    (d : Fin 512) (k : Fin 32) :
    ((outsAt0 m c t.val t.isLt).1 : S1x512x32.Idx → EReal) (ix3 (0 : Fin 1) d k)
      = Cert.Spec.vlad (csK m c) (biK m c) (xK m c) (c2K m c) b d k := by
  have hlt : t.val - 1 < cfg0.N := Nat.lt_of_le_of_lt (Nat.sub_le _ _) t.isLt
  have ht' : (⟨t.val - 1, hlt⟩ : Fin cfg0.N).val % 2 = 0 := by show (t.val - 1) % 2 = 0; omega
  have e := outsAt_even m c ⟨t.val - 1, hlt⟩ ht'
  rw [outsAt_odd m c t h1, show (outsAt0 m c (t.val - 1) hlt).2.1 = _ from congrArg Prod.fst e,
    show (outsAt0 m c (t.val - 1) hlt).2.2 = _ from congrArg Prod.snd e]
  exact batch_value (csK m c) (biK m c) (xK m c b) (c2K m c) (iblk m c 0 t) (iblk m c 0 ⟨t.val - 1, hlt⟩)
    (iblk m c 1 t) (iblk m c 1 ⟨t.val - 1, hlt⟩) (iblk m c 2 t) (iblk m c 2 ⟨t.val - 1, hlt⟩) (iblk m c 3 t)
    (cs_blk m c t) (cs_blk m c _) (bi_blk m c t) (bi_blk m c _) (c2_blk m c t)
    (rows_blk m c ⟨t.val - 1, hlt⟩ b (by show b.val = (t.val - 1) / 2; omega) Cert.Spec.lo
      (fun r => by show r.val = ((t.val - 1) % 2) * 2048 + r.val; omega))
    (rows_blk m c t b hb Cert.Spec.hi (fun r => by show r.val + 2048 = (t.val % 2) * 2048 + r.val; omega)) d k

/-- The same at any entry of the block, against the entry of the array it is written to. -/
theorem out_value_at (c : Dev nD) (t : Fin cfg0.N) (h1 : t.val % 2 = 1) (j : S1x512x32.Idx) (i : S32x512x32.Idx)
    (h0 : (i 0).val = t.val / 2) (hd : (i 1).val = (j 1).val) (hk : (i 2).val = (j 2).val) :
    ((outsAt0 m c t.val t.isLt).1 : S1x512x32.Idx → EReal) j = G m c i := by
  have hj : j = ix3 (0 : Fin 1) (i 1) (i 2) := by
    funext a; apply Fin.ext
    match a with
    | ⟨0, _⟩ => show (j 0).val = 0; have : (j 0).val < 1 := (j 0).isLt; omega
    | ⟨1, _⟩ => exact hd.symm
    | ⟨2, _⟩ => exact hk.symm
  rw [hj]
  exact out_value m c t h1 (i 0) h0 (i 1) (i 2)

/-- What a point that writes back writes is its block of the descriptor array. -/
theorem flushed_eq (c : Dev nD) (t : Fin cfg0.N) (hf : (cfg0.win 4).flush t = true) :
    (dats m 0 c).flushed 4 t = ((cfg0.win 4).blk t).view.read (Elt Ideal) (G m c) := by
  have h1 : t.val % 2 = 1 := (flush0_4 t).mp hf
  obtain ⟨-, -, -, e0, e1, e2, -⟩ := idx_facts t
  show (cfg0.win 4).cut (grid0.coords t) ((dats m 0 c).after 4 t) = _
  rw [after0_4]
  funext j
  rw [View.read_apply]
  refine out_value_at m c t h1 j _ ?_ ?_ ?_
  · show win0_4.index t (0 : Fin 3) * 1 + 1 * (j 0).val = t.val / 2
    have : (j 0).val < 1 := (j 0).isLt
    omega
  · show win0_4.index t (1 : Fin 3) * 512 + 1 * (j 1).val = (j 1).val
    omega
  · show win0_4.index t (2 : Fin 3) * 32 + 1 * (j 2).val = (j 2).val
    omega

/-- The result array of the region ends holding the descriptor array. -/
theorem final (c : Dev nD) : (dats m 0 c).arrAt 4 cfg0.N = G m c :=
  (dats m 0 c).arrAt_eq_of_cover 4 (G m c) (fun t hf => flushed_eq m c t hf) covered

/-- The run: the result is the last normalisation of the descriptor array, the arguments are unchanged. -/
theorem run : θ_run defs (onTc (τ := τ) (main (F := Ideal))) ⟨m, fun _ => 0, ρ⟩ fun r => ∀ c : Dev nD,
      r.2.mem ((c : Thread nD τ).loc main_v21) = tail (F := Ideal) (G m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
    ⟨((h c).2 main_v21 (Pipeline.mem_restRefs_of main_v21 (by decide) (by decide))).trans
        ((tail_eq m c).trans (congrArg (tail (F := Ideal)) (final m c))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Exact

end Cert.KernelIdeal.Entry

end
-- ==== Proof.RefValue.lean ====
/-
  The reference program read at coordinates, up to the descriptor before the last normalisation.

  Each intermediate array of the reference is identified, entry by entry, with the corresponding quantity of the
  specification: the logits of a row, their supremum, the shifted exponentials and their sum, the soft assignment
  restricted to the kept clusters, the cluster masses, the assignment-weighted features, the residual against the
  centres, and the residual normalised over the features of each cluster. The folded projection and the folded bias
  are kept closed: they enter only through their entries.
-/
import proofs.«137309_j11888469475783_1_alg».proof.Proof.RefRead
import proofs.«137309_j11888469475783_1_alg».proof.Proof.Spec
import proofs.«137309_j11888469475783_1_alg».proof.Proof.LibMaxReduce

noncomputable section

namespace Cert.RefValue

open Idealize.ShloMosaic Idealize.ShloMosaic.ValueIdx Cert.ReferenceIdeal Cert.ReferenceIdeal.Gen Cert.ReferenceIdeal.Read
open Cert.LibMaxReduce (fold_max_bot ofBits_neg_inf)

variable (x0 : FVec Ideal S32x4096x512 .f32) (x1 : FVec Ideal S512x48 .f32) (x2 : FVec Ideal S1x512x32 .f32)
  (x3 x4 x5 x6 : FVec Ideal S48 .f32)

/-- The folded projection by coordinates. -/
abbrev cs : Fin 512 → Fin 48 → EReal := fun d c => val_main_v8 (F := Ideal) x1 x3 x6 (ix2 d c)
/-- The folded bias by coordinate. -/
abbrev bi : Fin 48 → EReal := fun c => val_main_v5 (F := Ideal) x3 x4 x5 x6 (ix1 c)
/-- The rows of batch b. -/
abbrev rows (b : Fin 32) : Fin 4096 → Fin 512 → EReal := fun n d => x0 (ix3 b n d)
/-- The cluster centres by coordinates. -/
abbrev c2 : Fin 512 → Fin 32 → EReal := fun d k => x2 (ix3 (0 : Fin 1) d k)

/-- The logits: the contraction over the 512 features plus the bias. -/
theorem v12_at (b : Fin 32) (n : Fin 4096) (c : Fin 48) :
    val_main_v12 (F := Ideal) x0 x1 x3 x4 x5 x6 (ix3 b n c)
      = Cert.Spec.rowLogit (cs x1 x3 x6) (bi x3 x4 x5 x6) (rows x0 b n) c := by
  have el : ∀ k : Fin 512, lidx_main_v9 (ix3 b n c) k = ix3 b n k := fun k => funext fun a => Fin.ext (by
    match a with | ⟨0, _⟩ => rfl | ⟨1, _⟩ => rfl | ⟨2, _⟩ => rfl)
  have er : ∀ k : Fin 512, ridx_main_v9 (ix3 b n c) k = ix2 k c := fun k => funext fun a => Fin.ext (by
    match a with | ⟨0, _⟩ => rfl | ⟨1, _⟩ => rfl)
  have eb : idx_main_v10 (idx_main_v11 (ix3 b n c)) = ix1 c := funext fun a => Fin.ext (by
    match a with | ⟨0, _⟩ => rfl)
  rw [val_main_v12_apply, val_main_v9_apply, val_main_v11_apply, val_main_v10_apply, eb]
  simp only [el, er]
  rfl

/-- The row maximum: the supremum of the row's logits. -/
theorem v13_at (b : Fin 32) (n : Fin 4096) :
    val_main_v13 (F := Ideal) x0 x1 x3 x4 x5 x6 (ix2 b n)
      = ⨆ c : Fin 48, Cert.Spec.rowLogit (cs x1 x3 x6) (bi x3 x4 x5 x6) (rows x0 b n) c := by
  have hR : S32x4096x48.Reduces [2] S32x4096 := by decide
  unfold val_main_v13
  rw [Host.reduce_eq_fold_single FloatOps.maximumf _ _ reducesTo_S32x4096x48_S32x4096_d2 hR h_S_ (ix2 b n)]
  have hb : val_main_cst_0 (F := Ideal) (Shape.Idx.first h_S_) = (⊥ : EReal) := ofBits_neg_inf
  rw [hb]
  refine (fold_max_bot _).trans ?_
  refine iSup_congr fun c => ?_
  have e : hR.lift (ix2 b n) c = ix3 b n c := funext fun a => Fin.ext (by
    match a with | ⟨0, _⟩ => rfl | ⟨1, _⟩ => rfl | ⟨2, _⟩ => rfl)
  show val_main_v12 (F := Ideal) x0 x1 x3 x4 x5 x6 (hR.lift (ix2 b n) c) = _
  rw [e]
  exact v12_at x0 x1 x3 x4 x5 x6 b n c

/-- The maximum with minus infinity changes nothing. -/
theorem v15_at (b : Fin 32) (n : Fin 4096) :
    val_main_v15 (F := Ideal) x0 x1 x3 x4 x5 x6 (ix2 b n)
      = ⨆ c : Fin 48, Cert.Spec.rowLogit (cs x1 x3 x6) (bi x3 x4 x5 x6) (rows x0 b n) c := by
  rw [val_main_v15_apply, val_main_v14_apply, val_main_cst_1_apply, v13_at]
  show max (Ideal.ofBits .f32 0xFF800000#32) _ = _
  rw [ofBits_neg_inf, max_bot_left]

/-- The shifted exponentials. -/
theorem v19_at (b : Fin 32) (n : Fin 4096) (c : Fin 48) :
    val_main_v19 (F := Ideal) x0 x1 x3 x4 x5 x6 (ix3 b n c)
      = Cert.Spec.rowExp (cs x1 x3 x6) (bi x3 x4 x5 x6) (rows x0 b n) c := by
  have e : idx_main_v16 (idx_main_v17 (ix3 b n c)) = ix2 b n := funext fun a => Fin.ext (by
    match a with | ⟨0, _⟩ => rfl | ⟨1, _⟩ => rfl)
  rw [val_main_v19_apply, val_main_v18_apply, val_main_v17_apply, val_main_v16_apply, e, v15_at, v12_at]
  rfl

/-- The row sum of the shifted exponentials. -/
theorem v20_at (b : Fin 32) (n : Fin 4096) :
    val_main_v20 (F := Ideal) x0 x1 x3 x4 x5 x6 (ix2 b n)
      = ∑ c : Fin 48, Cert.Spec.rowExp (cs x1 x3 x6) (bi x3 x4 x5 x6) (rows x0 b n) c := by
  have h0 : val_main_cst_2 (F := Ideal) (Shape.Idx.first h_S_) = (0 : EReal) := Ideal.ofBits_zero_f32
  rw [val_main_v20_apply, h0, zero_add]
  refine Finset.sum_congr rfl fun c _ => ?_
  have e : idx_main_v20 (ix2 b n) c = ix3 b n c := funext fun a => Fin.ext (by
    match a with | ⟨0, _⟩ => rfl | ⟨1, _⟩ => rfl | ⟨2, _⟩ => rfl)
  rw [e]
  exact v19_at x0 x1 x3 x4 x5 x6 b n c

/-- The soft assignment to the kept clusters. -/
theorem v24_at (b : Fin 32) (n : Fin 4096) (k : Fin 32) :
    val_main_v24 (F := Ideal) x0 x1 x3 x4 x5 x6 (ix3 b n k)
      = Cert.Spec.rowAssign (cs x1 x3 x6) (bi x3 x4 x5 x6) (rows x0 b n) k := by
  have e24 : idx_main_v24 (ix3 b n k) = ix3 b n (Cert.Spec.keep k) := funext fun a => Fin.ext (by
    match a with | ⟨0, _⟩ => rfl | ⟨1, _⟩ => rfl | ⟨2, _⟩ => rfl)
  have e22 : idx_main_v21 (idx_main_v22 (ix3 b n (Cert.Spec.keep k))) = ix2 b n := funext fun a => Fin.ext (by
    match a with | ⟨0, _⟩ => rfl | ⟨1, _⟩ => rfl)
  rw [val_main_v24_apply, e24, val_main_v23_apply, val_main_v22_apply, val_main_v21_apply, e22, v20_at, v19_at]
  rfl

/-- The mass of each cluster. -/
theorem v25_at (b : Fin 32) (k : Fin 32) :
    val_main_v25 (F := Ideal) x0 x1 x3 x4 x5 x6 (ix2 b k)
      = Cert.Spec.asum (cs x1 x3 x6) (bi x3 x4 x5 x6) (rows x0 b) k := by
  have h0 : val_main_cst_3 (F := Ideal) (Shape.Idx.first h_S_) = (0 : EReal) := Ideal.ofBits_zero_f32
  rw [val_main_v25_apply, h0, zero_add]
  unfold Cert.Spec.asum
  refine Finset.sum_congr rfl fun n _ => ?_
  have e : idx_main_v25 (ix2 b k) n = ix3 b n k := funext fun a => Fin.ext (by
    match a with | ⟨0, _⟩ => rfl | ⟨1, _⟩ => rfl | ⟨2, _⟩ => rfl)
  rw [e]
  exact v24_at x0 x1 x3 x4 x5 x6 b n k

/-- The cluster masses times the centres. -/
theorem v29_at (b : Fin 32) (d : Fin 512) (k : Fin 32) :
    val_main_v29 (F := Ideal) x0 x1 x2 x3 x4 x5 x6 (ix3 b d k)
      = Cert.Spec.asum (cs x1 x3 x6) (bi x3 x4 x5 x6) (rows x0 b) k * c2 x2 d k := by
  have e27 : idx_main_v26 (idx_main_v27 (ix3 b d k)) = ix2 b k := funext fun a => Fin.ext (by
    match a with | ⟨0, _⟩ => rfl | ⟨1, _⟩ => rfl)
  have e28 : idx_main_v28 (ix3 b d k) = ix3 (0 : Fin 1) d k := funext fun a => Fin.ext (by
    match a with | ⟨0, _⟩ => rfl | ⟨1, _⟩ => rfl | ⟨2, _⟩ => rfl)
  rw [val_main_v29_apply, val_main_v27_apply, val_main_v26_apply, e27, v25_at, val_main_v28_apply, e28]
  rfl

/-- The features weighted by the assignments. -/
theorem v30_at (b : Fin 32) (d : Fin 512) (k : Fin 32) :
    val_main_v30 (F := Ideal) x0 x1 x3 x4 x5 x6 (ix3 b d k)
      = Cert.Spec.xta (cs x1 x3 x6) (bi x3 x4 x5 x6) (rows x0 b) d k := by
  rw [val_main_v30_apply]
  unfold Cert.Spec.xta
  refine Finset.sum_congr rfl fun n _ => ?_
  have el : lidx_main_v30 (ix3 b d k) n = ix3 b n d := funext fun a => Fin.ext (by
    match a with | ⟨0, _⟩ => rfl | ⟨1, _⟩ => rfl | ⟨2, _⟩ => rfl)
  have er : ridx_main_v30 (ix3 b d k) n = ix3 b n k := funext fun a => Fin.ext (by
    match a with | ⟨0, _⟩ => rfl | ⟨1, _⟩ => rfl | ⟨2, _⟩ => rfl)
  rw [el, er, v24_at]

/-- The residual against the centres. -/
theorem v31_at (b : Fin 32) (d : Fin 512) (k : Fin 32) :
    val_main_v31 (F := Ideal) x0 x1 x2 x3 x4 x5 x6 (ix3 b d k)
      = Cert.Spec.resid (Cert.Spec.xta (cs x1 x3 x6) (bi x3 x4 x5 x6) (rows x0 b))
          (Cert.Spec.asum (cs x1 x3 x6) (bi x3 x4 x5 x6) (rows x0 b)) (c2 x2) d k := by
  rw [val_main_v31_apply, v30_at, v29_at]
  rfl

/-- The sum of the squared residuals over the features. -/
theorem v33_at (b : Fin 32) (k : Fin 32) :
    val_main_v33 (F := Ideal) x0 x1 x2 x3 x4 x5 x6 (ix2 b k)
      = ∑ d' : Fin 512,
          Cert.Spec.resid (Cert.Spec.xta (cs x1 x3 x6) (bi x3 x4 x5 x6) (rows x0 b))
              (Cert.Spec.asum (cs x1 x3 x6) (bi x3 x4 x5 x6) (rows x0 b)) (c2 x2) d' k
            * Cert.Spec.resid (Cert.Spec.xta (cs x1 x3 x6) (bi x3 x4 x5 x6) (rows x0 b))
              (Cert.Spec.asum (cs x1 x3 x6) (bi x3 x4 x5 x6) (rows x0 b)) (c2 x2) d' k := by
  have h0 : val_main_cst_4 (F := Ideal) (Shape.Idx.first h_S_) = (0 : EReal) := Ideal.ofBits_zero_f32
  rw [val_main_v33_apply, h0, zero_add]
  refine Finset.sum_congr rfl fun d' _ => ?_
  have e : idx_main_v33 (ix2 b k) d' = ix3 b d' k := funext fun a => Fin.ext (by
    match a with | ⟨0, _⟩ => rfl | ⟨1, _⟩ => rfl | ⟨2, _⟩ => rfl)
  rw [e, val_main_v32_apply, v31_at]
  rfl

/-- The norm of the residual over the features, bounded below by the floor. -/
theorem v38_at (b : Fin 32) (d : Fin 512) (k : Fin 32) :
    val_main_v38 (F := Ideal) x0 x1 x2 x3 x4 x5 x6 (ix3 b d k)
      = max (Ideal.sqrt (∑ d' : Fin 512,
          Cert.Spec.resid (Cert.Spec.xta (cs x1 x3 x6) (bi x3 x4 x5 x6) (rows x0 b))
              (Cert.Spec.asum (cs x1 x3 x6) (bi x3 x4 x5 x6) (rows x0 b)) (c2 x2) d' k
            * Cert.Spec.resid (Cert.Spec.xta (cs x1 x3 x6) (bi x3 x4 x5 x6) (rows x0 b))
              (Cert.Spec.asum (cs x1 x3 x6) (bi x3 x4 x5 x6) (rows x0 b)) (c2 x2) d' k)) Cert.Spec.normFloor := by
  have e38 : idx_main_v38 (ix3 b d k) = ix3 b (0 : Fin 1) k := funext fun a => Fin.ext (by
    match a with | ⟨0, _⟩ => rfl | ⟨1, _⟩ => rfl | ⟨2, _⟩ => rfl)
  have e34 : idx_main_v34 (ix3 b (0 : Fin 1) k) = ix2 b k := funext fun a => Fin.ext (by
    match a with | ⟨0, _⟩ => rfl | ⟨1, _⟩ => rfl)
  rw [val_main_v38_apply, e38, val_main_v37_apply, val_main_v35_apply, val_main_v34_apply, e34, v33_at,
    val_main_v36_apply, val_main_cst_5_apply]
  rfl

/-- The reference's array before the reshape and the last normalisation is the specification's descriptor. -/
theorem ref_vlad (b : Fin 32) (d : Fin 512) (k : Fin 32) :
    val_main_v39 (F := Ideal) x0 x1 x2 x3 x4 x5 x6 (ix3 b d k)
      = Cert.Spec.vlad (fun d c => val_main_v8 (F := Ideal) x1 x3 x6 (ix2 d c))
          (fun c => val_main_v5 (F := Ideal) x3 x4 x5 x6 (ix1 c))
          (fun b n d => x0 (ix3 b n d)) (fun d k => x2 (ix3 (0 : Fin 1) d k)) b d k := by
  rw [val_main_v39_apply, v31_at, v38_at]
  rfl

end Cert.RefValue

end
-- ==== Proof.Bridge.lean ====
/-
  The two programs compute one function.

  Read at the exact values, the reference's array before its last normalisation is, entry by entry, the descriptor of
  the specification over its own folded projection and bias (the reference side), and the kernel's region leaves the
  descriptor of the specification over the host terms it was given (the kernel side). The two folded projections and
  the two folded biases are the same terms of the arguments, so the arrays are equal; both programs then apply the
  same last normalisation to equal arrays.
-/
import proofs.«137309_j11888469475783_1_alg».proof.Proof.KernelValue
import proofs.«137309_j11888469475783_1_alg».proof.Proof.RefValue

noncomputable section

namespace Cert.Bridge

open Idealize.ShloMosaic Idealize.ShloMosaic.TcCoe Idealize.SL.Sem Idealize.ShloMosaic.ValueIdx

/-- The reference's last eight operations are the last normalisation of its descriptor array. -/
theorem ref_tail (x0 : FVec Ideal Cert.ReferenceIdeal.S32x4096x512 .f32) (x1 : FVec Ideal Cert.ReferenceIdeal.S512x48 .f32)
    (x2 : FVec Ideal Cert.ReferenceIdeal.S1x512x32 .f32) (x3 x4 x5 x6 : FVec Ideal Cert.ReferenceIdeal.S48 .f32) :
    Cert.ReferenceIdeal.Read.val_main_v48 (F := Ideal) x0 x1 x2 x3 x4 x5 x6
      = Cert.KernelIdeal.Entry.tail (F := Ideal) (Cert.ReferenceIdeal.Read.val_main_v39 (F := Ideal) x0 x1 x2 x3 x4 x5 x6) := rfl

/-- The reference's descriptor array of the kernel's arguments is the array the kernel's region leaves. -/
theorem descriptor_eq (m : (ℓ : Loc Cert.KernelIdeal.nD Cert.KernelIdeal.τ Cert.KernelIdeal.sig) → Buf (Elt Ideal) ℓ)
    (c : Dev Cert.KernelIdeal.nD) :
    Cert.ReferenceIdeal.Read.val_main_v39 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Cert.KernelIdeal.Entry.G m c := by
  funext i
  obtain ⟨b, d, k, rfl⟩ : ∃ (b : Fin 32) (d : Fin 512) (k : Fin 32), i = ix3 b d k := ⟨i 0, i 1, i 2, eq_ix3 i⟩
  rw [Cert.RefValue.ref_vlad]
  rfl

/-- So the reference's result of the kernel's arguments is the kernel's result. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v48 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Cert.KernelIdeal.Entry.tail (F := Ideal) (Cert.KernelIdeal.Entry.G m c) :=
  (ref_tail _ _ _ _ _ _ _).trans (congrArg (Cert.KernelIdeal.Entry.tail (F := Ideal)) (descriptor_eq m c))

end Cert.Bridge

end
-- ==== Proof.lean ====
/-
  Soft-assignment pooling of 32 batches of 4096 rows of 512 features into 32 clusters (16 ghost clusters dropped), with
  the residual against the cluster centres normalised over the features and then over the whole descriptor: the
  kernel, which streams each batch's rows in two halves of 2048 through accumulators, against the reference, which
  computes everything on whole arrays.

  At the exact values both are the same function of the arguments. The softmax of a row depends on that row only, so
  the halves need no renormalisation; the sums over the 4096 rows (the cluster masses and the assignment-weighted
  features) are the lower half's sum started from zero plus the upper half's, and addition of extended reals is
  commutative and associative, so no finiteness is used. The scale folded into the projection, the folded bias, the
  floors of the two norms and the last normalisation are the same terms on both sides.

  The modules: Spec (the descriptor entry by entry), BodyValue (the kernel body's arithmetic at an entry), Pieces (what
  each case of the body leaves), KernelValue (the region's result array and the run), RefValue over RefRead / RefRun
  (the reference at coordinates), Bridge (the two sides are one function). The three frames are the generated frame
  of each kernel program and the reference's run with the result dropped; the idealization rewrote nothing.
-/
import proofs.«137309_j11888469475783_1_alg».proof.Defs
import proofs.«137309_j11888469475783_1_alg».proof.Proof.Gen.Kernel
import proofs.«137309_j11888469475783_1_alg».proof.Proof.Gen.Kernel.Skeleton
import proofs.«137309_j11888469475783_1_alg».proof.Proof.Gen.Kernel.Launch
import proofs.«137309_j11888469475783_1_alg».proof.Proof.Gen.Kernel.Points
import proofs.«137309_j11888469475783_1_alg».proof.Proof.Gen.Kernel.Frame
import proofs.«137309_j11888469475783_1_alg».proof.Proof.Gen.KernelIdeal
import proofs.«137309_j11888469475783_1_alg».proof.Proof.Gen.KernelIdeal.Skeleton
import proofs.«137309_j11888469475783_1_alg».proof.Proof.Gen.KernelIdeal.Launch
import proofs.«137309_j11888469475783_1_alg».proof.Proof.Gen.KernelIdeal.Points
import proofs.«137309_j11888469475783_1_alg».proof.Proof.Gen.KernelIdeal.Frame
import proofs.«137309_j11888469475783_1_alg».proof.Proof.Gen.ReferenceIdeal
import proofs.«137309_j11888469475783_1_alg».proof.Proof.Gen.Pre_finite_inputs
import proofs.«137309_j11888469475783_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the last normalisation of the descriptor array of the kernel's arguments. -/
theorem algebraic : Cert.algebraic_KernelIdeal_ReferenceIdeal := by
  intro m ρ m' ρ' _ hagree
  refine ⟨fun c => Cert.KernelIdeal.Entry.tail (F := Ideal) (Cert.KernelIdeal.Entry.G m c), Cert.KernelIdeal.Entry.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, (hagree c).1, (hagree c).2.1, (hagree c).2.2.1, (hagree c).2.2.2.1,
    (hagree c).2.2.2.2.1, (hagree c).2.2.2.2.2.1, (hagree c).2.2.2.2.2.2]
  exact Cert.Bridge.result_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
